-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S262144x1 : Shape := ⟨2, ![262144, 1]⟩
abbrev S128x64 : Shape := ⟨2, ![128, 64]⟩
abbrev S64 : Shape := ⟨1, ![64]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S262144x1 : S_.BroadcastsInDim S262144x1 (![] : Fin 0 → Fin S262144x1.rank)
  reducesTo_S262144x1_S_d0_1 : S262144x1.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg11 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg7 : FVec F S64 .f32) (main_arg8 : FVec F S128x64 .f32) (main_arg9 : FVec F S64 .f32) (main_arg10 : FVec F S128x64 .f32) (main_arg11 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg10
  let main_cst_18 : FVec F S_ .f32 := constant S_ .f32 0x7F800000#32
  let main_v50 : FVec F S128x64 .f32 := broadcastInDim S128x64 ![] bcast_S_S128x64 main_cst_18
  fn_part3 (F := F) main_arg11 main_v48 main_v49 main_v50

def fn_part1 {F : FTy → Type} [FloatOps F] (main_arg4 : FVec F S128x64 .f32) (main_arg5 : FVec F S64 .f32) (main_arg6 : FVec F S128x64 .f32) (main_arg7 : FVec F S64 .f32) (main_arg8 : FVec F S128x64 .f32) (main_arg9 : FVec F S64 .f32) (main_arg10 : FVec F S128x64 .f32) (main_arg11 : FVec F S64 .f32) (main_v13 : IVec S_ 1) (main_v16 : IVec S262144x1 1) : IVec S_ 1 :=
  let main_c_5 : IVec S_ 1 := constantI S_ 1 1#1
  let main_v17 : IVec S_ 1 := (fun x v => Host.reduce IntOp.andi x v reducesTo_S262144x1_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S262144x64 .f32) (main_arg1 : FVec F S262144x64 .f32) (main_arg2 : FVec F S262144x64 .f32) (main_arg3 : FVec F S262144x1 .f32) (main_arg4 : FVec F S128x64 .f32) (main_arg5 : FVec F S64 .f32) (main_arg6 : FVec F S128x64 .f32) (main_arg7 : FVec F S64 .f32) (main_arg8 : FVec F S128x64 .f32) (main_arg9 : FVec F S64 .f32) (main_arg10 : FVec F S128x64 .f32) (main_arg11 : FVec F S64 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S262144x64 .f32 := Host.absf main_arg1
  let main_cst_0 : FVec F S_ .f32 := constant S_ .f32 0x7F800000#32
  let main_v5 : FVec F S262144x64 .f32 := broadcastInDim S262144x64 ![] bcast_S_S262144x64 main_cst_0
  let main_v6 : IVec S262144x64 1 := cmpf .olt main_v4 main_v5
  let main_c_1 : IVec S_ 1 := constantI S_ 1 1#1
  let main_v7 : IVec S_ 1 := (fun x v => Host.reduce IntOp.andi x v reducesTo_S262144x64_S_d0_1 h_S_) main_v6 main_c_1
  let main_v8 : IVec S_ 1 := andi main_v3 main_v7
  let main_v9 : FVec F S262144x64 .f32 := Host.absf main_arg2
  let main_cst_2 : FVec F S_ .f32 := constant S_ .f32 0x7F800000#32
  let main_v10 : FVec F S262144x64 .f32 := broadcastInDim S262144x64 ![] bcast_S_S262144x64 main_cst_2
  let main_v11 : IVec S262144x64 1 := cmpf .olt main_v9 main_v10
  let main_c_3 : IVec S_ 1 := constantI S_ 1 1#1
  let main_v12 : IVec S_ 1 := (fun x v => Host.reduce IntOp.andi x v reducesTo_S262144x64_S_d0_1 h_S_) main_v11 main_c_3
  let main_v13 : IVec S_ 1 := andi main_v8 main_v12
  let main_v14 : FVec F S262144x1 .f32 := Host.absf main_arg3
  let main_cst_4 : FVec F S_ .f32 := constant S_ .f32 0x7F800000#32
  let main_v15 : FVec F S262144x1 .f32 := broadcastInDim S262144x1 ![] bcast_S_S262144x1 main_cst_4
  let main_v16 : IVec S262144x1 1 := cmpf .olt main_v14 main_v15
  fn_part1 (F := F) main_arg4 main_arg5 main_arg6 main_arg7 main_arg8 main_arg9 main_arg10 main_arg11 main_v13 main_v16
-- ==== Kernel.lean ====
abbrev S262144x64 : Shape := ⟨2, ![262144, 64]⟩
abbrev S262144x1 : Shape := ⟨2, ![262144, 1]⟩
abbrev S128x64 : Shape := ⟨2, ![128, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S1x256 : Shape := ⟨2, ![1, 256]⟩
abbrev S262144 : Shape := ⟨1, ![262144]⟩
abbrev S8192x64 : Shape := ⟨2, ![8192, 64]⟩
abbrev S8192 : Shape := ⟨1, ![8192]⟩
abbrev S8192x1 : Shape := ⟨2, ![8192, 1]⟩
abbrev S8192x256 : Shape := ⟨2, ![8192, 256]⟩

abbrev nBuf : Space → Nat
  | .hbm => 27
  | .vmem => 15
  | .smem => 0
  | _ => 0

abbrev bufTy : (tb : Table) → Fin (tcTables nBuf tb) → BufTy
  | .hbm, ⟨0, _⟩ => ⟨S262144x64, .f32⟩
  | .hbm, ⟨1, _⟩ => ⟨S262144x64, .f32⟩
  | .hbm, ⟨2, _⟩ => ⟨S262144x64, .f32⟩
  | .hbm, ⟨3, _⟩ => ⟨S262144x1, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x256, .f32⟩
  | .hbm, ⟨21, _⟩ => ⟨S64x256, .f32⟩
  | .hbm, ⟨22, _⟩ => ⟨S256, .f32⟩
  | .hbm, ⟨23, _⟩ => ⟨S1x256, .f32⟩
  | .hbm, ⟨24, _⟩ => ⟨S262144, .f32⟩
  | .hbm, ⟨25, _⟩ => ⟨S262144x64, .f32⟩
  | .hbm, ⟨26, _⟩ => ⟨S262144x64, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S8192x64, .f32⟩
  | .local _ .vmem, ⟨5, _⟩ => ⟨S8192x64, .f32⟩
  | .local _ .vmem, ⟨6, _⟩ => ⟨S8192, .f32⟩
  | .local _ .vmem, ⟨7, _⟩ => ⟨S8192, .f32⟩
  | .local _ .vmem, ⟨8, _⟩ => ⟨S64x256, .f32⟩
  | .local _ .vmem, ⟨9, _⟩ => ⟨S64x256, .f32⟩
  | .local _ .vmem, ⟨10, _⟩ => ⟨S1x256, .f32⟩
  | .local _ .vmem, ⟨11, _⟩ => ⟨S8192x64, .f32⟩
  | .local _ .vmem, ⟨12, _⟩ => ⟨S8192x64, .f32⟩
  | .local _ .vmem, ⟨13, _⟩ => ⟨S8192x64, .f32⟩
  | .local _ .vmem, ⟨14, _⟩ => ⟨S8192x64, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8192x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S128x64_S64x64_0_0 : S128x64.Slices ![0, 0] S64x64
  slices_S128x64_S64x64_64_0 : S128x64.Slices ![64, 0] S64x64
  concatenates_S64x64_S64x64_S64x64_S64x64_S64x256_d1 : Shape.Concatenates [S64x64, S64x64, S64x64, S64x64] S64x256 1
  concatenates_S64_S64_S64_S64_S256_d0 : Shape.Concatenates [S64, S64, S64, S64] S256 0
  shapeCasts_S256_S1x256 : S256.ShapeCasts S1x256
  shapeCasts_S262144x1_S262144 : S262144x1.ShapeCasts S262144
  inb_S8192_S8192_0 : ∀ a, (![0] : Fin 1 → Nat) a + S8192.size a ≤ S8192.size a
  h_S8192 : 0 < S8192.numel
  shapeCasts_S8192_S8192 : S8192.ShapeCasts S8192
  shapeCasts_S8192_S8192x1 : S8192.ShapeCasts S8192x1
  inb_S8192x64_S8192x64_0_0 : ∀ a, (![0, 0] : Fin 2 → Nat) a + S8192x64.size a ≤ S8192x64.size a
  h_S8192x64 : 0 < S8192x64.numel
  broadcasts_S8192x1_S8192x64 : S8192x1.Broadcasts S8192x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  slices_S8192x256_o0_0_S8192x64 : S8192x256.Slices ![0, 0] S8192x64
  slices_S8192x256_o0_64_S8192x64 : S8192x256.Slices ![0, 64] S8192x64
  slices_S8192x256_o0_128_S8192x64 : S8192x256.Slices ![0, 128] S8192x64
  slices_S8192x256_o0_192_S8192x64 : S8192x256.Slices ![0, 192] S8192x64
  dot_S8192x64_S64x256_S8192x256_1_0_0_1_n_n_wf : DotDims.WF S8192x64 S64x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S262144x64.size a
  hwx0_0 : ∀ i : grid0.Coords, EltTy.bits .f32 = 32 ∨ (Rect.block (s := S262144x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S262144x64.size a
  hwx0_1 : ∀ i : grid0.Coords, EltTy.bits .f32 = 32 ∨ (Rect.block (s := S262144x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S262144x64.size a
  hwx0_2 : ∀ i : grid0.Coords, EltTy.bits .f32 = 32 ∨ (Rect.block (s := S262144x64) S8192x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S262144.size a
  hwx0_3 : ∀ i : grid0.Coords, EltTy.bits .f32 = 32 ∨ (Rect.block (s := S262144) S8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x64.size a ≤ S262144x64.size a
  hwx0_7 : ∀ i : grid0.Coords, EltTy.bits .f32 = 32 ∨ (Rect.block (s := S262144x64) S8192x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8192x64.size a ≤ S262144x64.size a
  hwx0_8 : ∀ i : grid0.Coords, EltTy.bits .f32 = 32 ∨ (Rect.block (s := S262144x64) S8192x64.size (cc0_transform_8 i) (hinb0_8 i)).WholeWords (EltTy.packing .f32)

variable [Facts₀]

def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13_0) S8192x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v13_1) S8192x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262144x64 : Shape := ⟨2, ![262144, 64]⟩
abbrev S262144x1 : Shape := ⟨2, ![262144, 1]⟩
abbrev S128x64 : Shape := ⟨2, ![128, 64]⟩
abbrev S64 : Shape := ⟨1, ![64]⟩
abbrev S262144x128 : Shape := ⟨2, ![262144, 128]⟩
abbrev S128x256 : Shape := ⟨2, ![128, 256]⟩
abbrev S256 : Shape := ⟨1, ![256]⟩
abbrev S262144x256 : Shape := ⟨2, ![262144, 256]⟩
abbrev S1x256 : Shape := ⟨2, ![1, 256]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S262144x64, .f32⟩
  | .hbm, ⟨2, _⟩ => ⟨S262144x64, .f32⟩
  | .hbm, ⟨3, _⟩ => ⟨S262144x1, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S262144x128, .f32⟩
  | .hbm, ⟨13, _⟩ => ⟨S262144x128, .f32⟩
  | .hbm, ⟨14, _⟩ => ⟨S262144x128, .f32⟩
  | .hbm, ⟨15, _⟩ => ⟨S128x256, .f32⟩
  | .hbm, ⟨16, _⟩ => ⟨S256, .f32⟩
  | .hbm, ⟨17, _⟩ => ⟨S262144x256, .f32⟩
  | .hbm, ⟨18, _⟩ => ⟨S1x256, .f32⟩
  | .hbm, ⟨19, _⟩ => ⟨S262144x256, .f32⟩
  | .hbm, ⟨20, _⟩ => ⟨S262144x256, .f32⟩
  | .hbm, ⟨21, _⟩ => ⟨S262144x64, .f32⟩
  | .hbm, ⟨22, _⟩ => ⟨S262144x64, .f32⟩
  | .hbm, ⟨23, _⟩ => ⟨S262144x64, .f32⟩
  | .hbm, ⟨24, _⟩ => ⟨S262144x64, .f32⟩
  | .hbm, ⟨25, _⟩ => ⟨S262144x64, .f32⟩
  | .hbm, ⟨26, _⟩ => ⟨S262144x64, .f32⟩
  | .hbm, ⟨27, _⟩ => ⟨S_, .f32⟩
  | .hbm, ⟨28, _⟩ => ⟨S262144x64, .f32⟩
  | .hbm, ⟨29, _⟩ => ⟨S262144x64, .f32⟩
  | .hbm, ⟨30, _⟩ => ⟨S_, .f32⟩
  | .hbm, ⟨31, _⟩ => ⟨S262144x64, .f32⟩
  | .hbm, ⟨32, _⟩ => ⟨S262144x64, .f32⟩
  | .hbm, ⟨33, _⟩ => ⟨S262144x64, .f32⟩
  | .hbm, ⟨34, _⟩ => ⟨S262144x64, .f32⟩
  | .hbm, ⟨35, _⟩ => ⟨S_, .f32⟩
  | .hbm, ⟨36, _⟩ => ⟨S262144x64, .f32⟩
  | .hbm, ⟨37, _⟩ => ⟨S262144x64, .f32⟩
  | .hbm, ⟨38, _⟩ => ⟨S_, .f32⟩
  | .hbm, ⟨39, _⟩ => ⟨S262144x64, .f32⟩
  | .hbm, ⟨40, _⟩ => ⟨S262144x64, .f32⟩
  | .hbm, ⟨41, _⟩ => ⟨S262144x64, .f32⟩
  | .hbm, ⟨42, _⟩ => ⟨S262144x64, .f32⟩
  | .hbm, ⟨43, _⟩ => ⟨S_, .f32⟩
  | .hbm, ⟨44, _⟩ => ⟨S262144x64, .f32⟩
  | .hbm, ⟨45, _⟩ => ⟨S262144x64, .f32⟩
  | .hbm, ⟨46, _⟩ => ⟨S_, .f32⟩
  | .hbm, ⟨47, _⟩ => ⟨S262144x64, .f32⟩
  | .hbm, ⟨48, _⟩ => ⟨S262144x64, .f32⟩
  | .hbm, ⟨49, _⟩ => ⟨S262144x64, .f32⟩
  | .hbm, ⟨50, _⟩ => ⟨S262144x64, .f32⟩
  | .hbm, ⟨51, _⟩ => ⟨S262144x64, .f32⟩
  | .hbm, ⟨52, _⟩ => ⟨S262144x64, .f32⟩
  | .hbm, ⟨53, _⟩ => ⟨S262144x64, .f32⟩
  | .hbm, ⟨54, _⟩ => ⟨S262144x64, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]

class Facts₀ : Prop where
  concatenates_S262144x64_S262144x64_S262144x128_d1 : Shape.Concatenates [S262144x64, S262144x64] S262144x128 1
  bcast_S262144x1_S262144x128_0_1 : S262144x1.BroadcastsInDim S262144x128 (![0, 1] : Fin 2 → Fin S262144x128.rank)
  concatenates_S128x64_S128x64_S128x64_S128x64_S128x256_d1 : Shape.Concatenates [S128x64, S128x64, S128x64, S128x64] S128x256 1
  concatenates_S64_S64_S64_S64_S256_d0 : Shape.Concatenates [S64, S64, S64, S64] S256 0
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  slices_S262144x256_S262144x64_0_0 : S262144x256.Slices ![0, 0] S262144x64
  slices_S262144x256_S262144x64_0_64 : S262144x256.Slices ![0, 64] S262144x64
  slices_S262144x256_S262144x64_0_128 : S262144x256.Slices ![0, 128] S262144x64
  slices_S262144x256_S262144x64_0_192 : S262144x256.Slices ![0, 192] S262144x64
  bcast_S_S262144x64 : S_.BroadcastsInDim S262144x64 (![] : Fin 0 → Fin S262144x64.rank)
  dot_S262144x128_S128x256_S262144x256_1_0_0_1_n_n_wf : DotDims.WF S262144x128 S128x256 S262144x256 [1] [0] [0] [1] [] []

variable [Facts₀]

def dot_S262144x128_S128x256_S262144x256_1_0_0_1_n_n : DotDims S262144x128 S128x256 S262144x256 where
  lhsContracting := [1]
  rhsContracting := [0]
  lhsNonContracting := [0]
  rhsNonContracting := [1]
  lhsBatch := []
  rhsBatch := []
  wf := dot_S262144x128_S128x256_S262144x256_1_0_0_1_n_n_wf

class Facts : Prop extends Facts₀ where

variable [Facts]
-- ==== Proof.StepWord.lean ====
/-
  The run of one step of the gated recurrent cell, as a program: the host lines cut the four weight matrices into
  their upper and lower halves, lay the halves side by side gate after gate, lay the four bias vectors end to end,
  and flatten the mask column; the one grid then visits the 32 row blocks of 8192 rows in order, at each of them
  reading its block of the three row arrays and of the mask, and the whole of the two weight panels and the bias
  row, and writing its block of the two results. Stated here, at any reading of the floats: what every buffer holds
  when the grid is entered, what the body leaves in its two result buffers as a function of the blocks it was
  handed, that the body run on those blocks does leave exactly that, and from it the run of the whole program —
  every fair execution ends, nothing faults, each array a window stages ends at what the blocks written back make
  of it, and every other buffer ends as the grid found it. The twelve arguments are written by no host line and
  by no write-back, so they end as they began.
-/
import proofs.«103007_j19456201851160_2_alg».proof.Proof.Gen.Kernel.Launch
import proofs.«103007_j19456201851160_2_alg».proof.Proof.Gen.Kernel.Skeleton
import proofs.«103007_j19456201851160_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the grid -/

/-- What each buffer of core `c` holds when the grid is entered: the starting memory after the thirteen host lines. -/
abbrev V (c : Dev nD) (b : Ref sig .tc) : Buf (Elt F) ((c : Thread nD τ).loc b) :=
  StableHlo.after (List.flatten [hostOps0]) (fun b => m (c, b)) b

/-- No host line allocates anything. -/
theorem hostOps0_fresh : (hostOps0 : List (HloOp τ sig (Elt F))).Forall fun op => op.fresh = ∅ := by
  simp only [List.Forall]; repeat' constructor

/-- The program is its host lines followed by the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the region writes argument 0: the region finds it as the program was started with. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 1: the region finds it as the program was started with. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 2: the region finds it as the program was started with. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 3: the region finds it as the program was started with. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 4: the region finds it as the program was started with. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 5: the region finds it as the program was started with. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 6: the region finds it as the program was started with. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 7: the region finds it as the program was started with. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 8: the region finds it as the program was started with. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 9: the region finds it as the program was started with. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 10: the region finds it as the program was started with. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 11: the region finds it as the program was started with. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-! ## The blocks the grid reads -/

/-- Window `w`'s block at grid point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current buffer holds its block at every point, whether the point fetched it or an earlier
    one did and the block index has not moved since (the two weight panels and the bias row are fetched once). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The arguments end as they began -/

/-- From a run that ends with every staged array at what its write-backs make of it and every other buffer as the
    grid found it: the three row arrays are staged by windows that are never written back, the other nine arguments
    are staged by no window, and no host line wrote any of the twelve. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-! ## What the body reads and writes -/

/-- The whole of a row block, of the mask block, of a weight panel, of the bias row. -/
abbrev rRows : Rect S8192x64 := Rect.unit (s := S8192x64) ![0, 0] S8192x64.size inb_S8192x64_S8192x64_0_0
abbrev rMask : Rect S8192 := Rect.unit (s := S8192) ![0] S8192.size inb_S8192_S8192_0
abbrev rPanel : Rect S64x256 := Rect.unit (s := S64x256) ![0, 0] S64x256.size inb_S64x256_S64x256_0_0
abbrev rBias : Rect S1x256 := Rect.unit (s := S1x256) ![0, 0] S1x256.size inb_S1x256_S1x256_0_0

/-- The buffer of the first result (the new hidden state) after the body, from the seven input blocks: its one
    store, of the whole buffer. -/
def outHidden (x0 x1 x2 : Vec F S8192x64 .f32) (x3 : Vec F S8192 .f32) (x4 x5 : Vec F S64x256 .f32) (x6 : Vec F S1x256 .f32) : Vec F S8192x64 .f32 :=
  View.canon [⟨rRows, k0_pay3 (View.ld x3 rMask) (View.ld x0 rRows) (View.ld x1 rRows) (View.ld x4 rPanel) (View.ld x5 rPanel) (View.ld x6 rBias) (View.ld x2 rRows)⟩]

/-- The buffer of the second result (the new cell state) after the body. -/
def outCell (x0 x1 x2 : Vec F S8192x64 .f32) (x3 : Vec F S8192 .f32) (x4 x5 : Vec F S64x256 .f32) (x6 : Vec F S1x256 .f32) : Vec F S8192x64 .f32 :=
  View.canon [⟨rRows, k0_pay2 (View.ld x3 rMask) (View.ld x0 rRows) (View.ld x1 rRows) (View.ld x4 rPanel) (View.ld x5 rPanel) (View.ld x6 rBias) (View.ld x2 rRows)⟩]

/-- One store of the whole buffer covers it. -/
theorem coverRows (p0 : Vec F S8192x64 .f32) (y : S8192x64.Idx) :
    ∃ pc ∈ ([⟨rRows, p0⟩] : List (View.Piece (Elt F) S8192x64 .f32)), y ∈ pc.1.set :=
  View.cover_of_tiled [⟨rRows, p0⟩] S8192x64.size (by rfl) y

/-! ## The body -/

set_option maxHeartbeats 1000000 in
/-- The body on whole buffers — the seven inputs' at given contents, the two results' at anything — runs to the
    end with the inputs' as they were and the results' at `outHidden` and `outCell` of the inputs. -/
theorem sound_kernel (c : Dev nD) (E : Set ℕ) (i : grid0.Coords)
    (arg1 : Memref sig .tc .vmem S8192x64 .f32) (harg1 : arg1.IsWhole) (arg2 : Memref sig .tc .vmem S8192x64 .f32) (harg2 : arg2.IsWhole)
    (arg3 : Memref sig .tc .vmem S8192x64 .f32) (harg3 : arg3.IsWhole) (arg4 : Memref sig .tc .vmem S8192 .f32) (harg4 : arg4.IsWhole)
    (arg5 : Memref sig .tc .vmem S64x256 .f32) (harg5 : arg5.IsWhole) (arg6 : Memref sig .tc .vmem S64x256 .f32) (harg6 : arg6.IsWhole)
    (arg7 : Memref sig .tc .vmem S1x256 .f32) (harg7 : arg7.IsWhole) (arg8 : Memref sig .tc .vmem S8192x64 .f32) (harg8 : arg8.IsWhole)
    (arg9 : Memref sig .tc .vmem S8192x64 .f32) (harg9 : arg9.IsWhole)
    (x0 x1 x2 : Vec F S8192x64 .f32) (x3 : Vec F S8192 .f32) (x4 x5 : Vec F S64x256 .f32) (x6 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outHidden x0 x1 x2 x3 x4 x5 x6)
            ∗ owns (c : Thread nD τ) arg9 fullShare (outCell x0 x1 x2 x3 x4 x5 x6)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverRows _)
  iexists _; isplitr
  swap; · iexact H8
  ipureintro
  exact View.read_writes_eq_canon _ _ _ (coverRows _)

/-! ## The proof data of the grid -/

/-- On core `c`: the arrays as the grid finds them; after the body at point `t` each input's buffer at its block
    and each result's at `outHidden` / `outCell` of the seven input blocks; nothing else is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outHidden (iblk m c 0 t) (iblk m c 1 t) (iblk m c 2 t) (iblk m c 3 t) (iblk m c 4 t) (iblk m c 5 t) (iblk m c 6 t)
    | ⟨8, _⟩ => outCell (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outHidden (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = outCell (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body at a grid point -/

/-- What the body is handed at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every fair execution of the program ends, nothing faulting, with every
    staged array at what its blocks written back make of it and every other buffer as the grid found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end and its twelve arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.Kernel.Step

end
-- ==== Proof.StepIdeal.lean ====
/-
  The run of one step of the gated recurrent cell, as a program: the host lines cut the four weight matrices into
  their upper and lower halves, lay the halves side by side gate after gate, lay the four bias vectors end to end,
  and flatten the mask column; the one grid then visits the 32 row blocks of 8192 rows in order, at each of them
  reading its block of the three row arrays and of the mask, and the whole of the two weight panels and the bias
  row, and writing its block of the two results. Stated here, at any reading of the floats: what every buffer holds
  when the grid is entered, what the body leaves in its two result buffers as a function of the blocks it was
  handed, that the body run on those blocks does leave exactly that, and from it the run of the whole program —
  every fair execution ends, nothing faults, each array a window stages ends at what the blocks written back make
  of it, and every other buffer ends as the grid found it. The twelve arguments are written by no host line and
  by no write-back, so they end as they began.
-/
import proofs.«103007_j19456201851160_2_alg».proof.Proof.Gen.KernelIdeal.Launch
import proofs.«103007_j19456201851160_2_alg».proof.Proof.Gen.KernelIdeal.Skeleton
import proofs.«103007_j19456201851160_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the grid -/

/-- What each buffer of core `c` holds when the grid is entered: the starting memory after the thirteen host lines. -/
abbrev V (c : Dev nD) (b : Ref sig .tc) : Buf (Elt F) ((c : Thread nD τ).loc b) :=
  StableHlo.after (List.flatten [hostOps0]) (fun b => m (c, b)) b

/-- No host line allocates anything. -/
theorem hostOps0_fresh : (hostOps0 : List (HloOp τ sig (Elt F))).Forall fun op => op.fresh = ∅ := by
  simp only [List.Forall]; repeat' constructor

/-- The program is its host lines followed by the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the region writes argument 0: the region finds it as the program was started with. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 1: the region finds it as the program was started with. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 2: the region finds it as the program was started with. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 3: the region finds it as the program was started with. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 4: the region finds it as the program was started with. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 5: the region finds it as the program was started with. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 6: the region finds it as the program was started with. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 7: the region finds it as the program was started with. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 8: the region finds it as the program was started with. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 9: the region finds it as the program was started with. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 10: the region finds it as the program was started with. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 11: the region finds it as the program was started with. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-! ## The blocks the grid reads -/

/-- Window `w`'s block at grid point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current buffer holds its block at every point, whether the point fetched it or an earlier
    one did and the block index has not moved since (the two weight panels and the bias row are fetched once). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The arguments end as they began -/

/-- From a run that ends with every staged array at what its write-backs make of it and every other buffer as the
    grid found it: the three row arrays are staged by windows that are never written back, the other nine arguments
    are staged by no window, and no host line wrote any of the twelve. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-! ## What the body reads and writes -/

/-- The whole of a row block, of the mask block, of a weight panel, of the bias row. -/
abbrev rRows : Rect S8192x64 := Rect.unit (s := S8192x64) ![0, 0] S8192x64.size inb_S8192x64_S8192x64_0_0
abbrev rMask : Rect S8192 := Rect.unit (s := S8192) ![0] S8192.size inb_S8192_S8192_0
abbrev rPanel : Rect S64x256 := Rect.unit (s := S64x256) ![0, 0] S64x256.size inb_S64x256_S64x256_0_0
abbrev rBias : Rect S1x256 := Rect.unit (s := S1x256) ![0, 0] S1x256.size inb_S1x256_S1x256_0_0

/-- The buffer of the first result (the new hidden state) after the body, from the seven input blocks: its one
    store, of the whole buffer. -/
def outHidden (x0 x1 x2 : Vec F S8192x64 .f32) (x3 : Vec F S8192 .f32) (x4 x5 : Vec F S64x256 .f32) (x6 : Vec F S1x256 .f32) : Vec F S8192x64 .f32 :=
  View.canon [⟨rRows, k0_pay3 (View.ld x3 rMask) (View.ld x0 rRows) (View.ld x1 rRows) (View.ld x4 rPanel) (View.ld x5 rPanel) (View.ld x6 rBias) (View.ld x2 rRows)⟩]

/-- The buffer of the second result (the new cell state) after the body. -/
def outCell (x0 x1 x2 : Vec F S8192x64 .f32) (x3 : Vec F S8192 .f32) (x4 x5 : Vec F S64x256 .f32) (x6 : Vec F S1x256 .f32) : Vec F S8192x64 .f32 :=
  View.canon [⟨rRows, k0_pay2 (View.ld x3 rMask) (View.ld x0 rRows) (View.ld x1 rRows) (View.ld x4 rPanel) (View.ld x5 rPanel) (View.ld x6 rBias) (View.ld x2 rRows)⟩]

/-- One store of the whole buffer covers it. -/
theorem coverRows (p0 : Vec F S8192x64 .f32) (y : S8192x64.Idx) :
    ∃ pc ∈ ([⟨rRows, p0⟩] : List (View.Piece (Elt F) S8192x64 .f32)), y ∈ pc.1.set :=
  View.cover_of_tiled [⟨rRows, p0⟩] S8192x64.size (by rfl) y

/-! ## The body -/

set_option maxHeartbeats 1000000 in
/-- The body on whole buffers — the seven inputs' at given contents, the two results' at anything — runs to the
    end with the inputs' as they were and the results' at `outHidden` and `outCell` of the inputs. -/
theorem sound_kernel (c : Dev nD) (E : Set ℕ) (i : grid0.Coords)
    (arg1 : Memref sig .tc .vmem S8192x64 .f32) (harg1 : arg1.IsWhole) (arg2 : Memref sig .tc .vmem S8192x64 .f32) (harg2 : arg2.IsWhole)
    (arg3 : Memref sig .tc .vmem S8192x64 .f32) (harg3 : arg3.IsWhole) (arg4 : Memref sig .tc .vmem S8192 .f32) (harg4 : arg4.IsWhole)
    (arg5 : Memref sig .tc .vmem S64x256 .f32) (harg5 : arg5.IsWhole) (arg6 : Memref sig .tc .vmem S64x256 .f32) (harg6 : arg6.IsWhole)
    (arg7 : Memref sig .tc .vmem S1x256 .f32) (harg7 : arg7.IsWhole) (arg8 : Memref sig .tc .vmem S8192x64 .f32) (harg8 : arg8.IsWhole)
    (arg9 : Memref sig .tc .vmem S8192x64 .f32) (harg9 : arg9.IsWhole)
    (x0 x1 x2 : Vec F S8192x64 .f32) (x3 : Vec F S8192 .f32) (x4 x5 : Vec F S64x256 .f32) (x6 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outHidden x0 x1 x2 x3 x4 x5 x6)
            ∗ owns (c : Thread nD τ) arg9 fullShare (outCell x0 x1 x2 x3 x4 x5 x6)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverRows _)
  iexists _; isplitr
  swap; · iexact H8
  ipureintro
  exact View.read_writes_eq_canon _ _ _ (coverRows _)

/-! ## The proof data of the grid -/

/-- On core `c`: the arrays as the grid finds them; after the body at point `t` each input's buffer at its block
    and each result's at `outHidden` / `outCell` of the seven input blocks; nothing else is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outHidden (iblk m c 0 t) (iblk m c 1 t) (iblk m c 2 t) (iblk m c 3 t) (iblk m c 4 t) (iblk m c 5 t) (iblk m c 6 t)
    | ⟨8, _⟩ => outCell (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outHidden (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = outCell (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body at a grid point -/

/-- What the body is handed at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every fair execution of the program ends, nothing faulting, with every
    staged array at what its blocks written back make of it and every other buffer as the grid found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end and its twelve arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.Step

end
-- ==== Proof.CellSpec.lean ====
/-
  One step of a gated recurrent cell with a shared row mask, as plain functions on the extended reals.

  A row carries an input vector `x`, a previous hidden vector `h` and a previous cell vector `c`, 64 entries each, and
  one mask factor `μ`. Each of the four gates has a 128 × 64 weight matrix `W` — rows 0..63 meet `x`, rows 64..127 meet
  `h` — and a bias `b`. The gate's pre-activation at column `q` is

      Σ_{k<64} (x k · μ) · W k q  +  Σ_{k<64} (h k · μ) · W (64 + k) q  +  b q.

  With `σ` the logistic function and the gates named input, forget, output and candidate, the new cell entry is
  `σ(forget) · c + σ(input) · tanh(candidate)` and the new hidden entry is `σ(output) · tanh(new cell)`.
  Every sum, product and function is the one of the extended reals: nothing here needs an entry to be finite.
-/
import Idealize.ShloMosaic.PureOps.Ideal
import Idealize.ShloMosaic.Lib.ValueIdx

noncomputable section

namespace Cert.CellSpec

open Idealize.ShloMosaic Idealize.ShloMosaic.ValueIdx

/-- One gate's pre-activation for one row, at column `q`: the masked input against the upper half of the gate's matrix,
    plus the masked hidden vector against the lower half, plus the bias. -/
def gateRow (x h : Fin 64 → EReal) (μ : EReal) (W : Fin 128 → Fin 64 → EReal) (b : Fin 64 → EReal) (q : Fin 64) : EReal :=
  (∑ k : Fin 64, (x k * μ) * W (Fin.castAdd 64 k) q + ∑ k : Fin 64, (h k * μ) * W (Fin.natAdd 64 k) q) + b q

/-- The new cell entry of one row at column `q`. -/
def cellRow (x h c : Fin 64 → EReal) (μ : EReal) (Wi : Fin 128 → Fin 64 → EReal) (bi : Fin 64 → EReal)
    (Wf : Fin 128 → Fin 64 → EReal) (bf : Fin 64 → EReal) (Wg : Fin 128 → Fin 64 → EReal) (bg : Fin 64 → EReal) (q : Fin 64) : EReal :=
  Ideal.logistic (gateRow x h μ Wf bf q) * c q + Ideal.logistic (gateRow x h μ Wi bi q) * Ideal.tanh (gateRow x h μ Wg bg q)

/-- The new hidden entry of one row at column `q`. -/
def hiddenRow (x h c : Fin 64 → EReal) (μ : EReal) (Wi : Fin 128 → Fin 64 → EReal) (bi : Fin 64 → EReal)
    (Wf : Fin 128 → Fin 64 → EReal) (bf : Fin 64 → EReal) (Wo : Fin 128 → Fin 64 → EReal) (bo : Fin 64 → EReal)
    (Wg : Fin 128 → Fin 64 → EReal) (bg : Fin 64 → EReal) (q : Fin 64) : EReal :=
  Ideal.logistic (gateRow x h μ Wo bo q) * Ideal.tanh (cellRow x h c μ Wi bi Wf bf Wg bg q)

/-! ## The same over the twelve arrays -/

abbrev Rows : Shape := ⟨2, ![262144, 64]⟩
abbrev MaskCol : Shape := ⟨2, ![262144, 1]⟩
abbrev Weights : Shape := ⟨2, ![128, 64]⟩
abbrev Bias : Shape := ⟨1, ![64]⟩

/-- Row `r` of a row array. -/
abbrev rowOf (X : Rows.Idx → EReal) (r : Fin 262144) : Fin 64 → EReal := fun k => X (ix2 r k)
/-- A weight matrix by row and column. -/
abbrev matOf (W : Weights.Idx → EReal) : Fin 128 → Fin 64 → EReal := fun k q => W (ix2 k q)
/-- A bias vector by column. -/
abbrev vecOf (b : Bias.Idx → EReal) : Fin 64 → EReal := fun q => b (ix1 q)

/-- The new cell array: entry `(r, q)` from row `r` of the three row arrays and of the mask column. -/
def newCell (X H C : Rows.Idx → EReal) (M : MaskCol.Idx → EReal) (Wi : Weights.Idx → EReal) (bi : Bias.Idx → EReal)
    (Wf : Weights.Idx → EReal) (bf : Bias.Idx → EReal) (Wg : Weights.Idx → EReal) (bg : Bias.Idx → EReal) : Rows.Idx → EReal :=
  fun i => cellRow (rowOf X (i 0)) (rowOf H (i 0)) (rowOf C (i 0)) (M (ix2 (i 0) (0 : Fin 1)))
    (matOf Wi) (vecOf bi) (matOf Wf) (vecOf bf) (matOf Wg) (vecOf bg) (i 1)

/-- The new hidden array. -/
def newHidden (X H C : Rows.Idx → EReal) (M : MaskCol.Idx → EReal) (Wi : Weights.Idx → EReal) (bi : Bias.Idx → EReal)
    (Wf : Weights.Idx → EReal) (bf : Bias.Idx → EReal) (Wo : Weights.Idx → EReal) (bo : Bias.Idx → EReal)
    (Wg : Weights.Idx → EReal) (bg : Bias.Idx → EReal) : Rows.Idx → EReal :=
  fun i => hiddenRow (rowOf X (i 0)) (rowOf H (i 0)) (rowOf C (i 0)) (M (ix2 (i 0) (0 : Fin 1)))
    (matOf Wi) (vecOf bi) (matOf Wf) (vecOf bf) (matOf Wo) (vecOf bo) (matOf Wg) (vecOf bg) (i 1)

/-! ## Two small facts both programs meet -/

/-- The single-precision pattern of one denotes the real number one. -/
theorem one_f32 : Ideal.ofBits .f32 0x3F800000#32 = 1 := by
  simp [Ideal.ofBits, Ideal.ieee, -EReal.coe_mul]; norm_num

/-- The logistic function spelt out as a quotient, `1 / (1 + e^(−z))`, is the logistic function. -/
theorem logistic_spelt (z : EReal) : Ideal.div 1 (1 + Ideal.exp (-z)) = Ideal.logistic z := rfl

/-- A sum over 128 indices is the sum over the first 64 plus the sum over the last 64. -/
theorem sum_halves (f : Fin 128 → EReal) :
    ∑ k : Fin 128, f k = ∑ k : Fin 64, f (Fin.castAdd 64 k) + ∑ k : Fin 64, f (Fin.natAdd 64 k) :=
  Fin.sum_univ_add (a := 64) (b := 64) f

end Cert.CellSpec

end
-- ==== Proof.BlockCell.lean ====
/-
  What the body computes on one block of 8192 rows, read entry by entry on the extended reals.

  The body is handed a block of each row array (8192 × 64), the block of the flat mask (8192), the two weight panels
  (64 × 256: the upper halves, and the lower halves, of the four gate matrices side by side) and the bias row (1 × 256).
  It turns the mask into a column, multiplies the input and hidden blocks by it, multiplies each against its panel,
  adds the two products and the bias row, cuts the 256 columns into the four gates, and combines them.
  Entry `(p, j)` of the 8192 × 256 pre-activation is therefore
      Σ_{k<64} (x p k · μ p) · Wx k j  +  Σ_{k<64} (h p k · μ p) · Wh k j  +  b j,
  a matrix product into a zero accumulator being the plain sum of products.
-/
import proofs.«103007_j19456201851160_2_alg».proof.Proof.Gen.KernelIdeal.Skeleton
import proofs.«103007_j19456201851160_2_alg».proof.Proof.CellSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockCell

open Cert.KernelIdeal Cert.KernelIdeal.Gen Idealize.ShloMosaic Idealize.ShloMosaic.ValueIdx

/-- A vector of 8192 entries cast to a column reads, at `(p, u)`, the vector at `p`. -/
theorem column_at (v : Vec Ideal S8192 .f32) (p : Fin 8192) (u : Fin 1) :
    shapeCast S8192x1 v shapeCasts_S8192_S8192x1 (ix2 p u) = v (ix1 p) :=
  shapeCast_apply v shapeCasts_S8192_S8192x1 _ _ (by
    have hu : u.val = 0 := by omega
    rw [Shape.rowMajor_val_two, Shape.rowMajor_val_one]
    show p.val = p.val * 1 + u.val
    rw [hu, Nat.mul_one, Nat.add_zero])

/-- A column broadcast along the 64 lanes reads, at `(p, k)`, the column at `(p, 0)`. -/
theorem lanes_at (w : Vec Ideal S8192x1 .f32) (p : Fin 8192) (k : Fin 64) :
    broadcastTo S8192x64 w broadcasts_S8192x1_S8192x64 (ix2 p k) = w (ix2 p (0 : Fin 1)) := by
  refine broadcastTo_apply w broadcasts_S8192x1_S8192x64 (ix2 p k) (ix2 p (0 : Fin 1)) fun ax => ?_
  match ax with
  | ⟨0, _⟩ =>
    show p.val = if (8192 : Nat) = 1 then 0 else p.val
    rw [if_neg (by decide)]
  | ⟨1, _⟩ =>
    show 0 = if (1 : Nat) = 1 then 0 else k.val
    rw [if_pos rfl]

/-- The mask factor of row `p`, as the body spreads it over the lanes. -/
theorem mask_at (x3 : Vec Ideal S8192 .f32) (p : Fin 8192) (k : Fin 64) :
    broadcastTo S8192x64 (shapeCast S8192x1 x3 shapeCasts_S8192_S8192x1)
      broadcasts_S8192x1_S8192x64 (ix2 p k) = x3 (ix1 p) := by
  rw [lanes_at, column_at]

local notation "dotD" => dot_S8192x64_S64x256_S8192x256_1_0_0_1_n_n

theorem lhs0 (i : S8192x256.Idx) (q : (dotD).contr.Idx) : ((dotD).lhsIdx i q 0).val = (i 0).val := by
  unfold DotDims.lhsIdx
  rw [dif_neg (show ¬(0 : Fin S8192x64.rank) ∈ (dotD).lhsBatch by decide), dif_pos (show (0 : Fin S8192x64.rank) ∈ (dotD).lhsNonContracting by decide)]
  rfl
theorem lhs1 (i : S8192x256.Idx) (q : (dotD).contr.Idx) : ((dotD).lhsIdx i q 1).val = (q ⟨0, by decide⟩).val :=
  (dotD).lhsIdx_val_of_single rfl i q
theorem rhs0 (i : S8192x256.Idx) (q : (dotD).contr.Idx) : ((dotD).rhsIdx i q 0).val = (q ⟨0, by decide⟩).val :=
  (dotD).rhsIdx_val_of_single rfl i q
theorem rhs1 (i : S8192x256.Idx) (q : (dotD).contr.Idx) : ((dotD).rhsIdx i q 1).val = (i 1).val := by
  unfold DotDims.rhsIdx
  rw [dif_neg (show ¬(1 : Fin S64x256.rank) ∈ (dotD).rhsBatch by decide), dif_pos (show (1 : Fin S64x256.rank) ∈ (dotD).rhsNonContracting by decide)]
  rfl

/-- A block of rows against a panel, into a zero accumulator: entry `(p, j)` is the sum over the 64 shared indices. -/
theorem product_at (l : FVec Ideal S8192x64 .f32) (r : FVec Ideal S64x256 .f32) (p : Fin 8192) (j : Fin 256) :
    matmul (dotD) none l r (constant (F := Ideal) S8192x256 .f32 0x00000000#32) (ix2 p j)
      = ∑ k : Fin 64, l (ix2 p k) * r (ix2 k j) := by
  refine (Ideal.matmul_constant_zero_apply (dotD) none l r (ix2 p j)).trans ?_
  rw [← Equiv.sum_comp (ValueIdx.contrEquiv1 (dotD) 64 rfl rfl).symm]
  refine Finset.sum_congr rfl fun k _ => ?_
  have hk := ValueIdx.contrEquiv1_symm_val (dotD) 64 rfl rfl k
  have el : (dotD).lhsIdx (ix2 p j) ((ValueIdx.contrEquiv1 (dotD) 64 rfl rfl).symm k) = ix2 p k := funext fun a => Fin.ext (by
    match a with
    | ⟨0, _⟩ => exact lhs0 _ _
    | ⟨1, _⟩ => exact (lhs1 _ _).trans hk)
  have er : (dotD).rhsIdx (ix2 p j) ((ValueIdx.contrEquiv1 (dotD) 64 rfl rfl).symm k) = ix2 k j := funext fun a => Fin.ext (by
    match a with
    | ⟨0, _⟩ => exact (rhs0 _ _).trans hk
    | ⟨1, _⟩ => exact rhs1 _ _)
  rw [el, er]

/-- The pre-activation of the block at `(p, j)`. -/
theorem preact_at (x3 : Vec Ideal S8192 .f32) (x0 x1 : Vec Ideal S8192x64 .f32) (x4 x5 : Vec Ideal S64x256 .f32) (x6 : Vec Ideal S1x256 .f32)
    (p : Fin 8192) (j : Fin 256) :
    k0_pay1 x3 x0 x1 x4 x5 x6 (ix2 p j)
      = (∑ k : Fin 64, (x0 (ix2 p k) * x3 (ix1 p)) * x4 (ix2 k j) + ∑ k : Fin 64, (x1 (ix2 p k) * x3 (ix1 p)) * x5 (ix2 k j))
        + x6 (ix2 (0 : Fin 1) j) := by
  unfold k0_pay1
  show (matmul (dotD) none _ _ _ (ix2 p j) + matmul (dotD) none _ _ _ (ix2 p j)) + broadcastTo S8192x256 _ broadcasts_S1x256_S8192x256 (ix2 p j) = _
  simp only [shapeCast_self]
  rw [product_at, product_at, broadcastTo_1b_ab_apply]
  congr 2
  · refine Finset.sum_congr rfl fun k _ => ?_
    rw [mulf_apply, mask_at]
  · refine Finset.sum_congr rfl fun k _ => ?_
    rw [mulf_apply, mask_at]

/-- Column `q` of gate `g` among the 256 columns. -/
abbrev col (g : Fin 4) (q : Fin 64) : Fin 256 := ⟨g.val * 64 + q.val, by have := g.isLt; have := q.isLt; omega⟩

/-- The three gates that make the new cell entry, read off their columns of any 8192 × 256 pre-activation `P`. -/
theorem cell_of_preact (P : FVec Ideal S8192x256 .f32) (x2 : Vec Ideal S8192x64 .f32) (p : Fin 8192) (q : Fin 64) :
    addf (mulf (logistic (extractStridedSlice S8192x64 ![0, 64] P slices_S8192x256_o0_64_S8192x64)) x2)
        (mulf (logistic (extractStridedSlice S8192x64 ![0, 0] P slices_S8192x256_o0_0_S8192x64))
          (tanh (extractStridedSlice S8192x64 ![0, 192] P slices_S8192x256_o0_192_S8192x64))) (ix2 p q)
      = Ideal.logistic (P (ix2 p (col 1 q))) * x2 (ix2 p q)
        + Ideal.logistic (P (ix2 p (col 0 q))) * Ideal.tanh (P (ix2 p (col 3 q))) := by
  show Ideal.logistic (extractStridedSlice S8192x64 ![0, 64] P slices_S8192x256_o0_64_S8192x64 (ix2 p q)) * x2 (ix2 p q)
      + Ideal.logistic (extractStridedSlice S8192x64 ![0, 0] P slices_S8192x256_o0_0_S8192x64 (ix2 p q))
        * Ideal.tanh (extractStridedSlice S8192x64 ![0, 192] P slices_S8192x256_o0_192_S8192x64 (ix2 p q)) = _
  rw [slice2_axis1_apply 64 P slices_S8192x256_o0_64_S8192x64 p q (col 1 q) (by show 1 * 64 + q.val = 64 + q.val; omega),
    slice2_axis1_apply 0 P slices_S8192x256_o0_0_S8192x64 p q (col 0 q) (by show 0 * 64 + q.val = 0 + q.val; omega),
    slice2_axis1_apply 192 P slices_S8192x256_o0_192_S8192x64 p q (col 3 q) (by show 3 * 64 + q.val = 192 + q.val; omega)]

/-- The output gate against the hyperbolic tangent of any new cell block `Cn`. -/
theorem hidden_of_preact (P : FVec Ideal S8192x256 .f32) (Cn : FVec Ideal S8192x64 .f32) (p : Fin 8192) (q : Fin 64) :
    mulf (logistic (extractStridedSlice S8192x64 ![0, 128] P slices_S8192x256_o0_128_S8192x64)) (tanh Cn) (ix2 p q)
      = Ideal.logistic (P (ix2 p (col 2 q))) * Ideal.tanh (Cn (ix2 p q)) := by
  show Ideal.logistic (extractStridedSlice S8192x64 ![0, 128] P slices_S8192x256_o0_128_S8192x64 (ix2 p q)) * Ideal.tanh (Cn (ix2 p q)) = _
  rw [slice2_axis1_apply 128 P slices_S8192x256_o0_128_S8192x64 p q (col 2 q) (by show 2 * 64 + q.val = 128 + q.val; omega)]

/-- The new cell entry of the block at `(p, q)`: the forget gate times the old cell entry plus the input gate times
    the candidate, each gate read off its 64 columns of the pre-activation. -/
theorem cell_at (x3 : Vec Ideal S8192 .f32) (x0 x1 : Vec Ideal S8192x64 .f32) (x4 x5 : Vec Ideal S64x256 .f32) (x6 : Vec Ideal S1x256 .f32)
    (x2 : Vec Ideal S8192x64 .f32) (p : Fin 8192) (q : Fin 64) :
    k0_pay2 x3 x0 x1 x4 x5 x6 x2 (ix2 p q)
      = Ideal.logistic (k0_pay1 x3 x0 x1 x4 x5 x6 (ix2 p (col 1 q))) * x2 (ix2 p q)
        + Ideal.logistic (k0_pay1 x3 x0 x1 x4 x5 x6 (ix2 p (col 0 q))) * Ideal.tanh (k0_pay1 x3 x0 x1 x4 x5 x6 (ix2 p (col 3 q))) := by
  unfold k0_pay2
  exact cell_of_preact (k0_pay1 x3 x0 x1 x4 x5 x6) x2 p q

/-- The new hidden entry of the block at `(p, q)`: the output gate times the hyperbolic tangent of the new cell entry. -/
theorem hidden_at (x3 : Vec Ideal S8192 .f32) (x0 x1 : Vec Ideal S8192x64 .f32) (x4 x5 : Vec Ideal S64x256 .f32) (x6 : Vec Ideal S1x256 .f32)
    (x2 : Vec Ideal S8192x64 .f32) (p : Fin 8192) (q : Fin 64) :
    k0_pay3 x3 x0 x1 x4 x5 x6 x2 (ix2 p q)
      = Ideal.logistic (k0_pay1 x3 x0 x1 x4 x5 x6 (ix2 p (col 2 q))) * Ideal.tanh (k0_pay2 x3 x0 x1 x4 x5 x6 x2 (ix2 p q)) := by
  unfold k0_pay3
  exact hidden_of_preact (k0_pay1 x3 x0 x1 x4 x5 x6) (k0_pay2 x3 x0 x1 x4 x5 x6 x2) p q

end Cert.KernelIdeal.BlockCell

end
-- ==== Proof.BlockSpec.lean ====
/-
  A block against the whole arrays. If row `p` of the blocks the body is handed is row `r` of the arrays — the same
  64 input, hidden and old cell entries and the same mask factor —, and the two panels and the bias row hold, in the
  64 columns of gate `g`, the upper half, the lower half and the bias of that gate's matrix, then what the body computes
  at `(p, q)` is the specification's new cell and new hidden entry at `(r, q)`.
-/
import proofs.«103007_j19456201851160_2_alg».proof.Proof.BlockCell

noncomputable section

namespace Cert.KernelIdeal.BlockCell

open Cert.KernelIdeal Cert.KernelIdeal.Gen Idealize.ShloMosaic Idealize.ShloMosaic.ValueIdx Cert.CellSpec

/-- Gate `g`'s pre-activation of row `p` of the block is that gate's pre-activation of row `r` of the arrays. -/
theorem gate_of_block (x3 : Vec Ideal S8192 .f32) (x0 x1 : Vec Ideal S8192x64 .f32) (x4 x5 : Vec Ideal S64x256 .f32) (x6 : Vec Ideal S1x256 .f32)
    (X H : Rows.Idx → EReal) (M : MaskCol.Idx → EReal) (W : Weights.Idx → EReal) (b : Bias.Idx → EReal)
    (g : Fin 4) (r : Fin 262144) (p : Fin 8192)
    (h0 : ∀ k : Fin 64, x0 (ix2 p k) = X (ix2 r k)) (h1 : ∀ k : Fin 64, x1 (ix2 p k) = H (ix2 r k))
    (h3 : x3 (ix1 p) = M (ix2 r (0 : Fin 1)))
    (h4 : ∀ (k q : Fin 64), x4 (ix2 k (col g q)) = W (ix2 (Fin.castAdd 64 k) q))
    (h5 : ∀ (k q : Fin 64), x5 (ix2 k (col g q)) = W (ix2 (Fin.natAdd 64 k) q))
    (h6 : ∀ q : Fin 64, x6 (ix2 (0 : Fin 1) (col g q)) = b (ix1 q)) (q : Fin 64) :
    k0_pay1 x3 x0 x1 x4 x5 x6 (ix2 p (col g q)) = gateRow (rowOf X r) (rowOf H r) (M (ix2 r (0 : Fin 1))) (matOf W) (vecOf b) q := by
  rw [preact_at, h3, h6]
  unfold gateRow
  congr 2
  · exact Finset.sum_congr rfl fun k _ => by rw [h0, h4]
  · exact Finset.sum_congr rfl fun k _ => by rw [h1, h5]

/-- The new cell entry. The gates sit in the order input, forget, output, candidate. -/
theorem cell_of_block (x3 : Vec Ideal S8192 .f32) (x0 x1 x2 : Vec Ideal S8192x64 .f32) (x4 x5 : Vec Ideal S64x256 .f32) (x6 : Vec Ideal S1x256 .f32)
    (X H C : Rows.Idx → EReal) (M : MaskCol.Idx → EReal) (W : Fin 4 → Weights.Idx → EReal) (b : Fin 4 → Bias.Idx → EReal)
    (r : Fin 262144) (p : Fin 8192)
    (h0 : ∀ k : Fin 64, x0 (ix2 p k) = X (ix2 r k)) (h1 : ∀ k : Fin 64, x1 (ix2 p k) = H (ix2 r k))
    (h2 : ∀ q : Fin 64, x2 (ix2 p q) = C (ix2 r q)) (h3 : x3 (ix1 p) = M (ix2 r (0 : Fin 1)))
    (h4 : ∀ (g : Fin 4) (k q : Fin 64), x4 (ix2 k (col g q)) = W g (ix2 (Fin.castAdd 64 k) q))
    (h5 : ∀ (g : Fin 4) (k q : Fin 64), x5 (ix2 k (col g q)) = W g (ix2 (Fin.natAdd 64 k) q))
    (h6 : ∀ (g : Fin 4) (q : Fin 64), x6 (ix2 (0 : Fin 1) (col g q)) = b g (ix1 q)) (q : Fin 64) :
    k0_pay2 x3 x0 x1 x4 x5 x6 x2 (ix2 p q) = newCell X H C M (W 0) (b 0) (W 1) (b 1) (W 3) (b 3) (ix2 r q) := by
  rw [cell_at, h2,
    gate_of_block x3 x0 x1 x4 x5 x6 X H M (W 1) (b 1) 1 r p h0 h1 h3 (h4 1) (h5 1) (h6 1) q,
    gate_of_block x3 x0 x1 x4 x5 x6 X H M (W 0) (b 0) 0 r p h0 h1 h3 (h4 0) (h5 0) (h6 0) q,
    gate_of_block x3 x0 x1 x4 x5 x6 X H M (W 3) (b 3) 3 r p h0 h1 h3 (h4 3) (h5 3) (h6 3) q]
  rfl

/-- The new hidden entry. -/
theorem hidden_of_block (x3 : Vec Ideal S8192 .f32) (x0 x1 x2 : Vec Ideal S8192x64 .f32) (x4 x5 : Vec Ideal S64x256 .f32) (x6 : Vec Ideal S1x256 .f32)
    (X H C : Rows.Idx → EReal) (M : MaskCol.Idx → EReal) (W : Fin 4 → Weights.Idx → EReal) (b : Fin 4 → Bias.Idx → EReal)
    (r : Fin 262144) (p : Fin 8192)
    (h0 : ∀ k : Fin 64, x0 (ix2 p k) = X (ix2 r k)) (h1 : ∀ k : Fin 64, x1 (ix2 p k) = H (ix2 r k))
    (h2 : ∀ q : Fin 64, x2 (ix2 p q) = C (ix2 r q)) (h3 : x3 (ix1 p) = M (ix2 r (0 : Fin 1)))
    (h4 : ∀ (g : Fin 4) (k q : Fin 64), x4 (ix2 k (col g q)) = W g (ix2 (Fin.castAdd 64 k) q))
    (h5 : ∀ (g : Fin 4) (k q : Fin 64), x5 (ix2 k (col g q)) = W g (ix2 (Fin.natAdd 64 k) q))
    (h6 : ∀ (g : Fin 4) (q : Fin 64), x6 (ix2 (0 : Fin 1) (col g q)) = b g (ix1 q)) (q : Fin 64) :
    k0_pay3 x3 x0 x1 x4 x5 x6 x2 (ix2 p q)
      = newHidden X H C M (W 0) (b 0) (W 1) (b 1) (W 2) (b 2) (W 3) (b 3) (ix2 r q) := by
  rw [hidden_at, cell_of_block x3 x0 x1 x2 x4 x5 x6 X H C M W b r p h0 h1 h2 h3 h4 h5 h6 q,
    gate_of_block x3 x0 x1 x4 x5 x6 X H M (W 2) (b 2) 2 r p h0 h1 h3 (h4 2) (h5 2) (h6 2) q]
  rfl

end Cert.KernelIdeal.BlockCell

end
-- ==== Proof.LibConcat4.lean ====
/-
  A concatenation of four pieces of one shape, read at an index.
-/
import Idealize.ShloMosaic.Lib.Pipeline.Value

noncomputable section

namespace Cert.LibConcat4

open Idealize.ShloMosaic

/-- Four pieces `u 0, u 1, u 2, u 3` of one shape `s`, of extent `K` along axis `a`, laid end to end along that axis:
    at an index whose axis-`a` coordinate is `g · K + e` with `e` a coordinate of the piece, the concatenation reads
    piece `g` at the index with `e` on the axis and the same coordinates elsewhere. -/
theorem concat4_at {α : Type} {t s : Shape} (a : Fin t.rank) (u : Fin 4 → (s.Idx → α))
    (h : Shape.Concatenates ([(⟨s, u 0⟩ : (s : Shape) × (s.Idx → α)), ⟨s, u 1⟩, ⟨s, u 2⟩, ⟨s, u 3⟩].map (·.1)) t a)
    (hr : s.rank = t.rank) (K : Nat) (hK : s.size (a.cast hr.symm) = K)
    (j : t.Idx) (g : Fin 4) (i : s.Idx)
    (hi : ∀ b : Fin s.rank, b.cast hr ≠ a → (i b).val = (j (b.cast hr)).val)
    (ha : g.val * K + (i (a.cast hr.symm)).val = (j a).val) :
    concatenate t a [⟨s, u 0⟩, ⟨s, u 1⟩, ⟨s, u 2⟩, ⟨s, u 3⟩] h j = u g i := by
  subst hK
  match g with
  | ⟨0, _⟩ =>
    exact concatenate_apply_piece a _ h j 0 (by simp) s (u 0) rfl hr 0 (by simp) i hi (by simpa using ha)
  | ⟨1, _⟩ =>
    exact concatenate_apply_piece a _ h j 1 (by simp) s (u 1) rfl hr (1 * s.size (a.cast hr.symm))
      (by simp [dif_pos hr]) i hi ha
  | ⟨2, _⟩ =>
    exact concatenate_apply_piece a _ h j 2 (by simp) s (u 2) rfl hr (2 * s.size (a.cast hr.symm))
      (by simp [dif_pos hr]; omega) i hi ha
  | ⟨3, _⟩ =>
    exact concatenate_apply_piece a _ h j 3 (by simp) s (u 3) rfl hr (3 * s.size (a.cast hr.symm))
      (by simp [dif_pos hr]; omega) i hi ha

end Cert.LibConcat4

end
-- ==== Proof.CellArrays.lean ====
/-
  From blocks to arrays. The host lines leave, for the grid to stage: the mask column flattened to a vector; the
  upper halves (rows 0..63) of the four gate matrices side by side, gate `g` in columns `g · 64 .. g · 64 + 63`; their
  lower halves (rows 64..127) likewise; and the four biases end to end, as one row. Grid point `t` is handed rows
  `t · 8192 .. t · 8192 + 8191` of the three row arrays and of the flat mask, and the two panels and the bias row whole,
  and writes back the same rows of the two results. So row `p` of what it is handed is row `t · 8192 + p` of the
  arguments, what it writes back is rows `t · 8192 ..` of the specification's new hidden and new cell arrays, and the 32
  blocks tile the 262144 rows: after the run the two result arrays ARE those two arrays.
-/
import proofs.«103007_j19456201851160_2_alg».proof.Proof.StepIdeal
import proofs.«103007_j19456201851160_2_alg».proof.Proof.BlockSpec
import proofs.«103007_j19456201851160_2_alg».proof.Proof.LibConcat4
import Idealize.ShloMosaic.Lib.StableHlo.Run
import Idealize.ShloMosaic.Lib.Pipeline.Value
import Idealize.ShloMosaic.Lib.ValueLayout

set_option maxRecDepth 16384

noncomputable section

namespace Cert.KernelIdeal.Arrays

open Cert.KernelIdeal Cert.KernelIdeal.Gen Cert.KernelIdeal.Step Cert.KernelIdeal.BlockCell Cert.CellSpec
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## What the host lines leave for the grid -/

/-- The mask column flattened. -/
theorem flatMask (c : Dev nD) : (V m c main_v12 : S262144.Idx → EReal) =
    shapeCast S262144 (m ((c : Thread nD τ).loc main_arg3)) shapeCasts_S262144x1_S262144 := by
  dsimp only [V]
  simp only [hostOps0, List.flatten_cons, List.flatten_nil, List.append_nil, List.cons_append, List.nil_append]
  after_results
  rfl

/-- The upper halves of the four gate matrices side by side. -/
theorem upperPanel (c : Dev nD) : (V m c main_v8 : S64x256.Idx → EReal) =
    concatenate S64x256 1 [⟨S64x64, extractStridedSlice S64x64 ![0, 0] (m ((c : Thread nD τ).loc main_arg4)) slices_S128x64_S64x64_0_0⟩,
      ⟨S64x64, extractStridedSlice S64x64 ![0, 0] (m ((c : Thread nD τ).loc main_arg6)) slices_S128x64_S64x64_0_0⟩,
      ⟨S64x64, extractStridedSlice S64x64 ![0, 0] (m ((c : Thread nD τ).loc main_arg8)) slices_S128x64_S64x64_0_0⟩,
      ⟨S64x64, extractStridedSlice S64x64 ![0, 0] (m ((c : Thread nD τ).loc main_arg10)) slices_S128x64_S64x64_0_0⟩]
      concatenates_S64x64_S64x64_S64x64_S64x64_S64x256_d1 := by
  dsimp only [V]
  simp only [hostOps0, List.flatten_cons, List.flatten_nil, List.append_nil, List.cons_append, List.nil_append]
  after_results
  rfl

/-- The lower halves of the four gate matrices side by side. -/
theorem lowerPanel (c : Dev nD) : (V m c main_v9 : S64x256.Idx → EReal) =
    concatenate S64x256 1 [⟨S64x64, extractStridedSlice S64x64 ![64, 0] (m ((c : Thread nD τ).loc main_arg4)) slices_S128x64_S64x64_64_0⟩,
      ⟨S64x64, extractStridedSlice S64x64 ![64, 0] (m ((c : Thread nD τ).loc main_arg6)) slices_S128x64_S64x64_64_0⟩,
      ⟨S64x64, extractStridedSlice S64x64 ![64, 0] (m ((c : Thread nD τ).loc main_arg8)) slices_S128x64_S64x64_64_0⟩,
      ⟨S64x64, extractStridedSlice S64x64 ![64, 0] (m ((c : Thread nD τ).loc main_arg10)) slices_S128x64_S64x64_64_0⟩]
      concatenates_S64x64_S64x64_S64x64_S64x64_S64x256_d1 := by
  dsimp only [V]
  simp only [hostOps0, List.flatten_cons, List.flatten_nil, List.append_nil, List.cons_append, List.nil_append]
  after_results
  rfl

/-- The four biases end to end, as one row. -/
theorem biasRow (c : Dev nD) : (V m c main_v11 : S1x256.Idx → EReal) =
    shapeCast S1x256 (concatenate S256 0 [⟨S64, m ((c : Thread nD τ).loc main_arg5)⟩, ⟨S64, m ((c : Thread nD τ).loc main_arg7)⟩,
      ⟨S64, m ((c : Thread nD τ).loc main_arg9)⟩, ⟨S64, m ((c : Thread nD τ).loc main_arg11)⟩] concatenates_S64_S64_S64_S64_S256_d0) shapeCasts_S256_S1x256 := by
  dsimp only [V]
  simp only [hostOps0, List.flatten_cons, List.flatten_nil, List.append_nil, List.cons_append, List.nil_append]
  after_results
  rfl

/-! ## Their entries -/

/-- The four gate matrices and the four biases of core `c`, in the order input, forget, output, candidate. -/
abbrev gateW (c : Dev nD) : Fin 4 → Weights.Idx → EReal :=
  ![m ((c : Thread nD τ).loc main_arg4), m ((c : Thread nD τ).loc main_arg6), m ((c : Thread nD τ).loc main_arg8), m ((c : Thread nD τ).loc main_arg10)]
abbrev gateB (c : Dev nD) : Fin 4 → Bias.Idx → EReal :=
  ![m ((c : Thread nD τ).loc main_arg5), m ((c : Thread nD τ).loc main_arg7), m ((c : Thread nD τ).loc main_arg9), m ((c : Thread nD τ).loc main_arg11)]

/-- A column cast to a vector reads, at `r`, the column at `(r, 0)`. -/
theorem uncolumn_at (x : S262144x1.Idx → EReal) (r : Fin 262144) :
    shapeCast S262144 x shapeCasts_S262144x1_S262144 (ix1 r) = x (ix2 r (0 : Fin 1)) :=
  shapeCast_apply x shapeCasts_S262144x1_S262144 _ _ (by
    rw [Shape.rowMajor_val_two, Shape.rowMajor_val_one]
    show r.val * 1 + 0 = r.val
    omega)

theorem mask_entry (c : Dev nD) (r : Fin 262144) :
    (V m c main_v12 : S262144.Idx → EReal) (ix1 r) = (m ((c : Thread nD τ).loc main_arg3) : S262144x1.Idx → EReal) (ix2 r (0 : Fin 1)) := by
  rw [flatMask]; exact uncolumn_at _ r

/-- Four 64 × 64 cuts of four 128 × 64 matrices, from row `o`, side by side: column `q` of gate `g`, row `k`, is
    matrix `g` at `(o + k, q)`. -/
theorem panel_at (o : Nat) (hs : S128x64.Slices ![o, 0] S64x64) (A : Fin 4 → S128x64.Idx → EReal)
    (h : Shape.Concatenates [S64x64, S64x64, S64x64, S64x64] S64x256 1)
    (g : Fin 4) (k q : Fin 64) (k' : Fin 128) (hk : k'.val = o + k.val) :
    concatenate S64x256 1 [⟨S64x64, extractStridedSlice S64x64 ![o, 0] (A 0) hs⟩, ⟨S64x64, extractStridedSlice S64x64 ![o, 0] (A 1) hs⟩,
      ⟨S64x64, extractStridedSlice S64x64 ![o, 0] (A 2) hs⟩, ⟨S64x64, extractStridedSlice S64x64 ![o, 0] (A 3) hs⟩] h (ix2 k (col g q))
      = A g (ix2 k' q) := by
  refine (Cert.LibConcat4.concat4_at (t := S64x256) (s := S64x64) (1 : Fin 2) (fun g => extractStridedSlice S64x64 ![o, 0] (A g) hs) h rfl 64 rfl
    (ix2 k (col g q)) g (ix2 k q) ?_ ?_).trans ?_
  · intro b hb
    match b with
    | ⟨0, _⟩ => rfl
    | ⟨1, _⟩ => exact absurd rfl hb
  · rfl
  · exact slice2_axis0_apply o (A g) hs k q k' hk

theorem upper_entry (c : Dev nD) (g : Fin 4) (k q : Fin 64) :
    (V m c main_v8 : S64x256.Idx → EReal) (ix2 k (col g q)) = gateW m c g (ix2 (Fin.castAdd 64 k) q) := by
  rw [upperPanel]
  exact panel_at 0 slices_S128x64_S64x64_0_0 (gateW m c) concatenates_S64x64_S64x64_S64x64_S64x64_S64x256_d1 g k q (Fin.castAdd 64 k)
    (by show k.val = 0 + k.val; omega)

theorem lower_entry (c : Dev nD) (g : Fin 4) (k q : Fin 64) :
    (V m c main_v9 : S64x256.Idx → EReal) (ix2 k (col g q)) = gateW m c g (ix2 (Fin.natAdd 64 k) q) := by
  rw [lowerPanel]
  exact panel_at 64 slices_S128x64_S64x64_64_0 (gateW m c) concatenates_S64x64_S64x64_S64x64_S64x64_S64x256_d1 g k q (Fin.natAdd 64 k)
    (by show 64 + k.val = 64 + k.val; rfl)

theorem bias_entry (c : Dev nD) (g : Fin 4) (q : Fin 64) :
    (V m c main_v11 : S1x256.Idx → EReal) (ix2 (0 : Fin 1) (col g q)) = gateB m c g (ix1 q) := by
  rw [biasRow, shapeCast_a_1a_apply]
  refine Cert.LibConcat4.concat4_at (t := S256) (s := S64) (0 : Fin 1) (gateB m c) concatenates_S64_S64_S64_S64_S256_d0 rfl 64 rfl
    (ix1 (col g q)) g (ix1 q) ?_ ?_
  · intro b hb
    match b with
    | ⟨0, _⟩ => exact absurd rfl hb
  · rfl

/-! ## The blocks the body is handed -/

/-- The block index of every window at every grid point (the three row arrays, the flat mask and the two results
    move with the point; the panels and the bias row stay), decided over the 32 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = t.val
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Row `p` of the block of point `t`, as a row of the arrays. -/
def rowAt (t : Fin cfg0.N) (p : Fin 8192) : Fin 262144 :=
  ⟨t.val * 8192 + p.val, by have ht : t.val < 32 := lt_of_lt_of_eq t.isLt N_0; have := p.isLt; omega⟩

theorem rowAt_val (t : Fin cfg0.N) (p : Fin 8192) : (rowAt t p).val = t.val * 8192 + p.val := rfl

/-- Row `p` of the block of row array 0 at point `t` is row `t · 8192 + p` of the array. -/
theorem rows0_at (c : Dev nD) (t : Fin cfg0.N) (p : Fin 8192) (k : Fin 64) :
    (iblk m c 0 t : Vec Ideal S8192x64 .f32) (ix2 p k) = (m ((c : Thread nD τ).loc main_arg0) : S262144x64.Idx → EReal) (ix2 (rowAt t p) k) := by
  obtain ⟨e00, e01, e10, e11, e20, e21, e3, e40, e41, e50, e51, e60, e61, e70, e71, e80, e81⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 8192 + 1 * p.val = t.val * 8192 + p.val; rw [e00]; omega
  | ⟨1, _⟩ => show win0_0.index t (1 : Fin 2) * 64 + 1 * k.val = k.val; rw [e01]; omega
/-- Row `p` of the block of row array 1 at point `t` is row `t · 8192 + p` of the array. -/
theorem rows1_at (c : Dev nD) (t : Fin cfg0.N) (p : Fin 8192) (k : Fin 64) :
    (iblk m c 1 t : Vec Ideal S8192x64 .f32) (ix2 p k) = (m ((c : Thread nD τ).loc main_arg1) : S262144x64.Idx → EReal) (ix2 (rowAt t p) k) := by
  obtain ⟨e00, e01, e10, e11, e20, e21, e3, e40, e41, e50, e51, e60, e61, e70, e71, e80, e81⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 8192 + 1 * p.val = t.val * 8192 + p.val; rw [e10]; omega
  | ⟨1, _⟩ => show win0_1.index t (1 : Fin 2) * 64 + 1 * k.val = k.val; rw [e11]; omega
/-- Row `p` of the block of row array 2 at point `t` is row `t · 8192 + p` of the array. -/
theorem rows2_at (c : Dev nD) (t : Fin cfg0.N) (p : Fin 8192) (k : Fin 64) :
    (iblk m c 2 t : Vec Ideal S8192x64 .f32) (ix2 p k) = (m ((c : Thread nD τ).loc main_arg2) : S262144x64.Idx → EReal) (ix2 (rowAt t p) k) := by
  obtain ⟨e00, e01, e10, e11, e20, e21, e3, e40, e41, e50, e51, e60, e61, e70, e71, e80, e81⟩ := idx_facts t
  unfold iblk
  rw [View.read_apply]
  show V m c main_arg2 _ = _
  rw [V_main_arg2]
  refine congrArg _ (funext fun a => Fin.ext ?_)
  match a with
  | ⟨0, _⟩ => show win0_2.index t (0 : Fin 2) * 8192 + 1 * p.val = t.val * 8192 + p.val; rw [e20]; omega
  | ⟨1, _⟩ => show win0_2.index t (1 : Fin 2) * 64 + 1 * k.val = k.val; rw [e21]; omega

/-- Entry `p` of the block of the flat mask at point `t` is the mask factor of row `t · 8192 + p`. -/
theorem mask_at (c : Dev nD) (t : Fin cfg0.N) (p : Fin 8192) :
    (iblk m c 3 t : Vec Ideal S8192 .f32) (ix1 p) = (m ((c : Thread nD τ).loc main_arg3) : S262144x1.Idx → EReal) (ix2 (rowAt t p) (0 : Fin 1)) := by
  obtain ⟨e00, e01, e10, e11, e20, e21, e3, e40, e41, e50, e51, e60, e61, e70, e71, e80, e81⟩ := idx_facts t
  refine Eq.trans ?_ (mask_entry m c (rowAt t p))
  unfold iblk
  rw [View.read_apply]
  show V m c main_v12 _ = V m c main_v12 _
  refine congrArg _ (funext fun a => Fin.ext ?_)
  match a with
  | ⟨0, _⟩ => show win0_3.index t (0 : Fin 1) * 8192 + 1 * p.val = t.val * 8192 + p.val; rw [e3]; omega

/-- The upper panel is handed to the body whole: its one block is the array. -/
theorem whole4_at (c : Dev nD) (t : Fin cfg0.N) (a0 : Fin 64) (a1 : Fin 256) :
    (iblk m c 4 t : Vec Ideal S64x256 .f32) (ix2 a0 a1) = (V m c main_v8 : S64x256.Idx → EReal) (ix2 a0 a1) := by
  obtain ⟨e00, e01, e10, e11, e20, e21, e3, e40, e41, e50, e51, e60, e61, e70, e71, e80, e81⟩ := idx_facts t
  unfold iblk
  rw [View.read_apply]
  show V m c main_v8 _ = _
  refine congrArg _ (funext fun a => Fin.ext ?_)
  match a with
  | ⟨0, _⟩ => show win0_4.index t (0 : Fin 2) * 64 + 1 * a0.val = a0.val; rw [e40]; omega
  | ⟨1, _⟩ => show win0_4.index t (1 : Fin 2) * 256 + 1 * a1.val = a1.val; rw [e41]; omega
/-- The lower panel is handed to the body whole: its one block is the array. -/
theorem whole5_at (c : Dev nD) (t : Fin cfg0.N) (a0 : Fin 64) (a1 : Fin 256) :
    (iblk m c 5 t : Vec Ideal S64x256 .f32) (ix2 a0 a1) = (V m c main_v9 : S64x256.Idx → EReal) (ix2 a0 a1) := by
  obtain ⟨e00, e01, e10, e11, e20, e21, e3, e40, e41, e50, e51, e60, e61, e70, e71, e80, e81⟩ := idx_facts t
  unfold iblk
  rw [View.read_apply]
  show V m c main_v9 _ = _
  refine congrArg _ (funext fun a => Fin.ext ?_)
  match a with
  | ⟨0, _⟩ => show win0_5.index t (0 : Fin 2) * 64 + 1 * a0.val = a0.val; rw [e50]; omega
  | ⟨1, _⟩ => show win0_5.index t (1 : Fin 2) * 256 + 1 * a1.val = a1.val; rw [e51]; omega
/-- The bias row is handed to the body whole: its one block is the array. -/
theorem whole6_at (c : Dev nD) (t : Fin cfg0.N) (a0 : Fin 1) (a1 : Fin 256) :
    (iblk m c 6 t : Vec Ideal S1x256 .f32) (ix2 a0 a1) = (V m c main_v11 : S1x256.Idx → EReal) (ix2 a0 a1) := by
  obtain ⟨e00, e01, e10, e11, e20, e21, e3, e40, e41, e50, e51, e60, e61, e70, e71, e80, e81⟩ := idx_facts t
  unfold iblk
  rw [View.read_apply]
  show V m c main_v11 _ = _
  refine congrArg _ (funext fun a => Fin.ext ?_)
  match a with
  | ⟨0, _⟩ => show win0_6.index t (0 : Fin 2) * 1 + 1 * a0.val = a0.val; rw [e60]; omega
  | ⟨1, _⟩ => show win0_6.index t (1 : Fin 2) * 256 + 1 * a1.val = a1.val; rw [e61]; omega

/-! ## What each point writes back -/

theorem hz : (![0, 0] : Fin 2 → Nat) = fun _ => 0 := funext fun a => by fin_cases a <;> rfl
theorem hz1 : (![0] : Fin 1 → Nat) = fun _ => 0 := funext fun a => by fin_cases a; rfl

/-- The specification's two arrays, of core `c`'s arguments. -/
abbrev cellArr (c : Dev nD) : Rows.Idx → EReal :=
  newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11))
abbrev hiddenArr (c : Dev nD) : Rows.Idx → EReal :=
  newHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- Point `t` writes back rows `t · 8192 ..` of the new cell array. -/
theorem flushedCell (c : Dev nD) (t : Fin cfg0.N) :
    (dats m 0 c).flushed 8 t = ((cfg0.win 8).blk t).view.read (Elt Ideal) (cellArr m c) := by
  obtain ⟨e00, e01, e10, e11, e20, e21, e3, e40, e41, e50, e51, e60, e61, e70, e71, e80, e81⟩ := idx_facts t
  show (cfg0.win 8).cut (grid0.coords t) ((dats m 0 c).after 8 t) = _
  rw [after0_8]
  unfold outCell
  rw [View.canon_unit_zero hz]
  simp only [View.ld_unit_zero (S := S8192x64) hz, View.ld_unit_zero (S := S8192) hz1, View.ld_unit_zero (S := S64x256) hz, View.ld_unit_zero (S := S1x256) hz]
  funext y
  obtain ⟨p, q, rfl⟩ : ∃ (p : Fin 8192) (q : Fin 64), y = ix2 p q := ⟨y 0, y 1, eq_ix2 y⟩
  show k0_pay2 (iblk m c 3 t) (iblk m c 0 t) (iblk m c 1 t) (iblk m c 4 t) (iblk m c 5 t) (iblk m c 6 t) (iblk m c 2 t) (ix2 p q)
    = cellArr m c (((cfg0.win 8).blk t).view.emb (ix2 p q))
  have he : ((cfg0.win 8).blk t).view.emb (ix2 p q) = ix2 (rowAt t p) q := funext fun a => Fin.ext (by
    match a with
    | ⟨0, _⟩ => show win0_8.index t (0 : Fin 2) * 8192 + 1 * p.val = t.val * 8192 + p.val; rw [e80]; omega
    | ⟨1, _⟩ => show win0_8.index t (1 : Fin 2) * 64 + 1 * q.val = q.val; rw [e81]; omega)
  rw [he]
  exact cell_of_block (iblk m c 3 t) (iblk m c 0 t) (iblk m c 1 t) (iblk m c 2 t) (iblk m c 4 t) (iblk m c 5 t) (iblk m c 6 t)
    (m ((c : Thread nD τ).loc main_arg0)) (m ((c : Thread nD τ).loc main_arg1)) (m ((c : Thread nD τ).loc main_arg2)) (m ((c : Thread nD τ).loc main_arg3)) (gateW m c) (gateB m c) (rowAt t p) p
    (rows0_at m c t p) (rows1_at m c t p) (rows2_at m c t p) (mask_at m c t p)
    (fun g k q => (whole4_at m c t k (col g q)).trans (upper_entry m c g k q))
    (fun g k q => (whole5_at m c t k (col g q)).trans (lower_entry m c g k q))
    (fun g q => (whole6_at m c t 0 (col g q)).trans (bias_entry m c g q)) q

/-- Point `t` writes back rows `t · 8192 ..` of the new hidden array. -/
theorem flushedHidden (c : Dev nD) (t : Fin cfg0.N) :
    (dats m 0 c).flushed 7 t = ((cfg0.win 7).blk t).view.read (Elt Ideal) (hiddenArr m c) := by
  obtain ⟨e00, e01, e10, e11, e20, e21, e3, e40, e41, e50, e51, e60, e61, e70, e71, e80, e81⟩ := idx_facts t
  show (cfg0.win 7).cut (grid0.coords t) ((dats m 0 c).after 7 t) = _
  rw [after0_7]
  unfold outHidden
  rw [View.canon_unit_zero hz]
  simp only [View.ld_unit_zero (S := S8192x64) hz, View.ld_unit_zero (S := S8192) hz1, View.ld_unit_zero (S := S64x256) hz, View.ld_unit_zero (S := S1x256) hz]
  funext y
  obtain ⟨p, q, rfl⟩ : ∃ (p : Fin 8192) (q : Fin 64), y = ix2 p q := ⟨y 0, y 1, eq_ix2 y⟩
  show k0_pay3 (iblk m c 3 t) (iblk m c 0 t) (iblk m c 1 t) (iblk m c 4 t) (iblk m c 5 t) (iblk m c 6 t) (iblk m c 2 t) (ix2 p q)
    = hiddenArr m c (((cfg0.win 7).blk t).view.emb (ix2 p q))
  have he : ((cfg0.win 7).blk t).view.emb (ix2 p q) = ix2 (rowAt t p) q := funext fun a => Fin.ext (by
    match a with
    | ⟨0, _⟩ => show win0_7.index t (0 : Fin 2) * 8192 + 1 * p.val = t.val * 8192 + p.val; rw [e70]; omega
    | ⟨1, _⟩ => show win0_7.index t (1 : Fin 2) * 64 + 1 * q.val = q.val; rw [e71]; omega)
  rw [he]
  exact hidden_of_block (iblk m c 3 t) (iblk m c 0 t) (iblk m c 1 t) (iblk m c 2 t) (iblk m c 4 t) (iblk m c 5 t) (iblk m c 6 t)
    (m ((c : Thread nD τ).loc main_arg0)) (m ((c : Thread nD τ).loc main_arg1)) (m ((c : Thread nD τ).loc main_arg2)) (m ((c : Thread nD τ).loc main_arg3)) (gateW m c) (gateB m c) (rowAt t p) p
    (rows0_at m c t p) (rows1_at m c t p) (rows2_at m c t p) (mask_at m c t p)
    (fun g k q => (whole4_at m c t k (col g q)).trans (upper_entry m c g k q))
    (fun g k q => (whole5_at m c t k (col g q)).trans (lower_entry m c g k q))
    (fun g q => (whole6_at m c t 0 (col g q)).trans (bias_entry m c g q)) q

/-! ## The blocks tile the arrays -/

theorem mem_blk7 (t : Fin cfg0.N) (i : S262144x64.Idx) :
    i ∈ ((cfg0.win 7).blk t).view.set ↔ ∀ a : Fin 2, win0_7.index t a * S8192x64.size a ≤ (i a).val ∧ (i a).val < win0_7.index t a * S8192x64.size a + S8192x64.size a := by
  show i ∈ ((View.whole main_v13_0).slice (win0_7.rect t)).set ↔ _
  rw [View.set_slice_whole, Rect.mem_set_unit]
  exact Iff.rfl

/-- Row `r` lies in the block of point `r / 8192`: the 32 blocks tile the array. -/
theorem coverHidden (i : S262144x64.Idx) : ∃ t : Fin cfg0.N, (cfg0.win 7).flush t = true ∧ i ∈ ((cfg0.win 7).blk t).view.set := by
  have hi0 : (i 0).val < 262144 := (i 0).isLt
  have hi1 : (i 1).val < 64 := (i 1).isLt
  have hN : cfg0.N = 32 := N_0
  let t : Fin cfg0.N := ⟨(i 0).val / 8192, by rw [hN]; omega⟩
  have ht : t.val = (i 0).val / 8192 := rfl
  obtain ⟨e00, e01, e10, e11, e20, e21, e3, e40, e41, e50, e51, e60, e61, e70, e71, e80, e81⟩ := idx_facts t
  refine ⟨t, flush0_7 t, ?_⟩
  rw [mem_blk7]
  intro a
  match a with
  | ⟨0, _⟩ => show win0_7.index t (0 : Fin 2) * 8192 ≤ (i 0).val ∧ (i 0).val < win0_7.index t (0 : Fin 2) * 8192 + 8192; rw [e70, ht]; omega
  | ⟨1, _⟩ => show win0_7.index t (1 : Fin 2) * 64 ≤ (i 1).val ∧ (i 1).val < win0_7.index t (1 : Fin 2) * 64 + 64; rw [e71]; omega

theorem mem_blk8 (t : Fin cfg0.N) (i : S262144x64.Idx) :
    i ∈ ((cfg0.win 8).blk t).view.set ↔ ∀ a : Fin 2, win0_8.index t a * S8192x64.size a ≤ (i a).val ∧ (i a).val < win0_8.index t a * S8192x64.size a + S8192x64.size a := by
  show i ∈ ((View.whole main_v13_1).slice (win0_8.rect t)).set ↔ _
  rw [View.set_slice_whole, Rect.mem_set_unit]
  exact Iff.rfl

/-- Row `r` lies in the block of point `r / 8192`: the 32 blocks tile the array. -/
theorem coverCell (i : S262144x64.Idx) : ∃ t : Fin cfg0.N, (cfg0.win 8).flush t = true ∧ i ∈ ((cfg0.win 8).blk t).view.set := by
  have hi0 : (i 0).val < 262144 := (i 0).isLt
  have hi1 : (i 1).val < 64 := (i 1).isLt
  have hN : cfg0.N = 32 := N_0
  let t : Fin cfg0.N := ⟨(i 0).val / 8192, by rw [hN]; omega⟩
  have ht : t.val = (i 0).val / 8192 := rfl
  obtain ⟨e00, e01, e10, e11, e20, e21, e3, e40, e41, e50, e51, e60, e61, e70, e71, e80, e81⟩ := idx_facts t
  refine ⟨t, flush0_8 t, ?_⟩
  rw [mem_blk8]
  intro a
  match a with
  | ⟨0, _⟩ => show win0_8.index t (0 : Fin 2) * 8192 ≤ (i 0).val ∧ (i 0).val < win0_8.index t (0 : Fin 2) * 8192 + 8192; rw [e80, ht]; omega
  | ⟨1, _⟩ => show win0_8.index t (1 : Fin 2) * 64 ≤ (i 1).val ∧ (i 1).val < win0_8.index t (1 : Fin 2) * 64 + 64; rw [e81]; omega

theorem finalHidden (c : Dev nD) : (dats m 0 c).arrAt 7 cfg0.N = hiddenArr m c :=
  (dats m 0 c).arrAt_eq_of_cover 7 (hiddenArr m c) (fun t _ => flushedHidden m c t) coverHidden

theorem finalCell (c : Dev nD) : (dats m 0 c).arrAt 8 cfg0.N = cellArr m c :=
  (dats m 0 c).arrAt_eq_of_cover 8 (cellArr m c) (fun t _ => flushedCell m c t) coverCell

/-! ## The run, read -/

/-- Every fair execution of the program ends with the two results at the specification's new hidden and new cell
    arrays of the arguments, and the twelve arguments unchanged. -/
theorem run : θ_run defs (onTc (τ := τ) (main (F := Ideal))) ⟨m, fun _ => 0, ρ⟩ fun r => ∀ c : Dev nD,
      r.2.mem ((c : Thread nD τ).loc main_v13_0) = hiddenArr m c
      ∧ r.2.mem ((c : Thread nD τ).loc main_v13_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨((h c).1 7).trans (finalHidden m c), ((h c).1 8).trans (finalCell m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩)
    (run_main m ρ)

end Cert.KernelIdeal.Arrays

end
-- ==== Proof.RefCell.lean ====
/-
  The reference program's two results, entry by entry, are the gated recurrent cell of the specification.

  The program joins x and h into one row of 128 entries, scales every entry by the row's mask factor, multiplies the
  row by the four gate matrices laid side by side (gate g in columns g · 64 … g · 64 + 63: input, forget, output,
  candidate) and adds the four biases laid end to end. Read at column g · 64 + q, the 128-term sum splits into its
  first 64 terms, which meet x and the upper half of gate g's matrix, and its last 64, which meet h and the lower half:
  that is the specification's pre-activation of gate g at column q. The four column slices pick out the four gates;
  1 / (1 + e^(−z)) with the constant one written as a bit pattern is the logistic function; and the new cell and
  hidden entries are the specification's combinations of the activated gates.
-/
import proofs.«103007_j19456201851160_2_alg».proof.Proof.Gen.ReferenceIdeal.Read
import proofs.«103007_j19456201851160_2_alg».proof.Proof.CellSpec
import proofs.«103007_j19456201851160_2_alg».proof.Proof.LibConcat4
import Idealize.ShloMosaic.Lib.ValueIdx
import Idealize.ShloMosaic.Lib.Pipeline.Value
import Idealize.ShloMosaic.PureOps.Ideal.Laws

noncomputable section

namespace Cert.RefCell

open Cert.ReferenceIdeal Cert.ReferenceIdeal.Read Idealize.ShloMosaic Idealize.ShloMosaic.ValueIdx

/-! ## The three concatenations and the mask column, read at an index -/

/-- The joined row [x ‖ h] at a column below 64 is x at that column. -/
theorem joined_lo (x0 x1 : (⟨S262144x64, .f32⟩ : BufTy).Contents (Elt Ideal)) (r : Fin 262144) (k : Fin 64)
    (j : S262144x128.Idx) (h0 : (j 0).val = r.val) (h1 : (j 1).val = k.val) :
    val_main_v0 (F := Ideal) x0 x1 j = x0 (ix2 r k) := by
  unfold val_main_v0
  exact concatenate_apply_piece 1 _ _ j 0 (by simp) S262144x64 x0 rfl rfl 0 (by simp) (ix2 r k)
    (fun b hb => by
      match b with
      | ⟨0, _⟩ => exact h0.symm
      | ⟨1, _⟩ => exact absurd rfl hb)
    (by show 0 + k.val = (j 1).val; omega)

/-- The joined row [x ‖ h] at column 64 + k is h at column k. -/
theorem joined_hi (x0 x1 : (⟨S262144x64, .f32⟩ : BufTy).Contents (Elt Ideal)) (r : Fin 262144) (k : Fin 64)
    (j : S262144x128.Idx) (h0 : (j 0).val = r.val) (h1 : (j 1).val = 64 + k.val) :
    val_main_v0 (F := Ideal) x0 x1 j = x1 (ix2 r k) := by
  unfold val_main_v0
  exact concatenate_apply_piece 1 _ _ j 1 (by simp) S262144x64 x1 rfl rfl 64 (by simp) (ix2 r k)
    (fun b hb => by
      match b with
      | ⟨0, _⟩ => exact h0.symm
      | ⟨1, _⟩ => exact absurd rfl hb)
    (by show 64 + k.val = (j 1).val; omega)

/-- The mask column spread over the 128 columns reads the row's mask factor everywhere. -/
theorem mask_at (x3 : (⟨S262144x1, .f32⟩ : BufTy).Contents (Elt Ideal)) (r : Fin 262144)
    (j : S262144x128.Idx) (h0 : (j 0).val = r.val) :
    val_main_v1 (F := Ideal) x3 j = x3 (ix2 r (0 : Fin 1)) := by
  rw [val_main_v1_apply]
  refine congrArg x3 (funext fun a => Fin.ext ?_)
  match a with
  | ⟨0, _⟩ => exact h0
  | ⟨1, _⟩ => rfl

/-- The four gate matrices side by side: column g · 64 + q of row k is gate g's matrix at (k, q). -/
theorem weights_at (W : Fin 4 → (⟨S128x64, .f32⟩ : BufTy).Contents (Elt Ideal)) (g : Fin 4) (k : Fin 128) (q : Fin 64)
    (j : S128x256.Idx) (h0 : (j 0).val = k.val) (h1 : (j 1).val = g.val * 64 + q.val) :
    val_main_v3 (F := Ideal) (W 0) (W 1) (W 2) (W 3) j = W g (ix2 k q) := by
  unfold val_main_v3
  exact Cert.LibConcat4.concat4_at (t := S128x256) (s := S128x64) 1 W _ rfl 64 rfl j g (ix2 k q)
    (fun b hb => by
      match b with
      | ⟨0, _⟩ => exact h0.symm
      | ⟨1, _⟩ => exact absurd rfl hb)
    h1.symm

/-- The four biases end to end: entry g · 64 + q is gate g's bias at q. -/
theorem bias_at (b : Fin 4 → (⟨S64, .f32⟩ : BufTy).Contents (Elt Ideal)) (g : Fin 4) (q : Fin 64)
    (j : S256.Idx) (h0 : (j 0).val = g.val * 64 + q.val) :
    val_main_v4 (F := Ideal) (b 0) (b 1) (b 2) (b 3) j = b g (ix1 q) := by
  unfold val_main_v4
  exact Cert.LibConcat4.concat4_at (t := S256) (s := S64) 0 b _ rfl 64 rfl j g (ix1 q)
    (fun c hc => by
      match c with
      | ⟨0, _⟩ => exact absurd rfl hc)
    h0.symm

/-! ## A gate's pre-activation -/

/-- Column g · 64 + q of the pre-activation array, at row r, is gate g's pre-activation of row r at column q:
    the 128-term sum splits into the x-half and the h-half, each term a masked entry of the joined row times
    an entry of gate g's matrix, and the bias entry is gate g's. -/
theorem preact_at (x0 x1 : (⟨S262144x64, .f32⟩ : BufTy).Contents (Elt Ideal)) (x3 : (⟨S262144x1, .f32⟩ : BufTy).Contents (Elt Ideal))
    (W : Fin 4 → (⟨S128x64, .f32⟩ : BufTy).Contents (Elt Ideal)) (b : Fin 4 → (⟨S64, .f32⟩ : BufTy).Contents (Elt Ideal))
    (r : Fin 262144) (g : Fin 4) (q : Fin 64)
    (j : S262144x256.Idx) (h0 : (j 0).val = r.val) (h1 : (j 1).val = g.val * 64 + q.val) :
    val_main_v8 (F := Ideal) x0 x1 x3 (W 0) (b 0) (W 1) (b 1) (W 2) (b 2) (W 3) (b 3) j
      = Cert.CellSpec.gateRow (Cert.CellSpec.rowOf x0 r) (Cert.CellSpec.rowOf x1 r) (x3 (ix2 r (0 : Fin 1)))
          (Cert.CellSpec.matOf (W g)) (Cert.CellSpec.vecOf (b g)) q := by
  rw [val_main_v8_apply, val_main_v5_apply, val_main_v7_apply, val_main_v6_apply, Cert.CellSpec.sum_halves]
  unfold Cert.CellSpec.gateRow
  rw [Ideal.addf_def]
  congr 1
  · congr 1
    · refine Finset.sum_congr rfl fun k _ => ?_
      rw [val_main_v2_apply, Ideal.mulf_def, joined_lo x0 x1 r k _ h0 rfl, mask_at x3 r _ h0,
        weights_at W g (Fin.castAdd 64 k) q _ rfl h1]
    · refine Finset.sum_congr rfl fun k _ => ?_
      rw [val_main_v2_apply, Ideal.mulf_def, joined_hi x0 x1 r k _ h0 rfl, mask_at x3 r _ h0,
        weights_at W g (Fin.natAdd 64 k) q _ rfl h1]
  · exact bias_at b g q _ h1

/-! ## The four gates' slices

From here on the twelve arrays are fixed. -/

section Fixed

variable (x0 x1 x2 : (⟨S262144x64, .f32⟩ : BufTy).Contents (Elt Ideal)) (x3 : (⟨S262144x1, .f32⟩ : BufTy).Contents (Elt Ideal))
  (x4 : (⟨S128x64, .f32⟩ : BufTy).Contents (Elt Ideal)) (x5 : (⟨S64, .f32⟩ : BufTy).Contents (Elt Ideal))
  (x6 : (⟨S128x64, .f32⟩ : BufTy).Contents (Elt Ideal)) (x7 : (⟨S64, .f32⟩ : BufTy).Contents (Elt Ideal))
  (x8 : (⟨S128x64, .f32⟩ : BufTy).Contents (Elt Ideal)) (x9 : (⟨S64, .f32⟩ : BufTy).Contents (Elt Ideal))
  (x10 : (⟨S128x64, .f32⟩ : BufTy).Contents (Elt Ideal)) (x11 : (⟨S64, .f32⟩ : BufTy).Contents (Elt Ideal))

/-- Columns 0..63 of the pre-activation array are the input gate's. -/
theorem input_at (r : Fin 262144) (q : Fin 64) :
    val_main_v9 (F := Ideal) x0 x1 x3 x4 x5 x6 x7 x8 x9 x10 x11 (ix2 r q)
      = Cert.CellSpec.gateRow (Cert.CellSpec.rowOf x0 r) (Cert.CellSpec.rowOf x1 r) (x3 (ix2 r (0 : Fin 1)))
          (Cert.CellSpec.matOf x4) (Cert.CellSpec.vecOf x5) q := by
  rw [val_main_v9_apply]
  exact preact_at x0 x1 x3 ![x4, x6, x8, x10] ![x5, x7, x9, x11] r 0 q _ rfl
    (by show q.val = 0 * 64 + q.val; omega)

/-- Columns 64..127 are the forget gate's. -/
theorem forget_at (r : Fin 262144) (q : Fin 64) :
    val_main_v10 (F := Ideal) x0 x1 x3 x4 x5 x6 x7 x8 x9 x10 x11 (ix2 r q)
      = Cert.CellSpec.gateRow (Cert.CellSpec.rowOf x0 r) (Cert.CellSpec.rowOf x1 r) (x3 (ix2 r (0 : Fin 1)))
          (Cert.CellSpec.matOf x6) (Cert.CellSpec.vecOf x7) q := by
  rw [val_main_v10_apply]
  exact preact_at x0 x1 x3 ![x4, x6, x8, x10] ![x5, x7, x9, x11] r 1 q _ rfl
    (by show 64 + q.val = 1 * 64 + q.val; omega)

/-- Columns 128..191 are the output gate's. -/
theorem output_at (r : Fin 262144) (q : Fin 64) :
    val_main_v11 (F := Ideal) x0 x1 x3 x4 x5 x6 x7 x8 x9 x10 x11 (ix2 r q)
      = Cert.CellSpec.gateRow (Cert.CellSpec.rowOf x0 r) (Cert.CellSpec.rowOf x1 r) (x3 (ix2 r (0 : Fin 1)))
          (Cert.CellSpec.matOf x8) (Cert.CellSpec.vecOf x9) q := by
  rw [val_main_v11_apply]
  exact preact_at x0 x1 x3 ![x4, x6, x8, x10] ![x5, x7, x9, x11] r 2 q _ rfl
    (by show 128 + q.val = 2 * 64 + q.val; omega)

/-- Columns 192..255 are the candidate's. -/
theorem candidate_at (r : Fin 262144) (q : Fin 64) :
    val_main_v12 (F := Ideal) x0 x1 x3 x4 x5 x6 x7 x8 x9 x10 x11 (ix2 r q)
      = Cert.CellSpec.gateRow (Cert.CellSpec.rowOf x0 r) (Cert.CellSpec.rowOf x1 r) (x3 (ix2 r (0 : Fin 1)))
          (Cert.CellSpec.matOf x10) (Cert.CellSpec.vecOf x11) q := by
  rw [val_main_v12_apply]
  exact preact_at x0 x1 x3 ![x4, x6, x8, x10] ![x5, x7, x9, x11] r 3 q _ rfl
    (by show 192 + q.val = 3 * 64 + q.val; omega)

/-! ## The logistic function as the program spells it

Each of the three gates is passed through 1 / (1 + e^(−z)), the constant one written as a bit pattern. -/

/-- The input gate's activation is the logistic function of its slice. -/
theorem input_act (i : S262144x64.Idx) :
    val_main_v18 (F := Ideal) x0 x1 x3 x4 x5 x6 x7 x8 x9 x10 x11 i
      = Ideal.logistic (val_main_v9 (F := Ideal) x0 x1 x3 x4 x5 x6 x7 x8 x9 x10 x11 i) := by
  rw [val_main_v18_apply, val_main_v17_apply, val_main_cst_0_apply, val_main_v16_apply, val_main_v15_apply,
    val_main_cst_apply, val_main_v14_apply, val_main_v13_apply]
  simp only [Ideal.hostDivf_def, Ideal.ofBits_def, Ideal.addf_def, Ideal.hostUnary_exp_def, Ideal.hostNegf_def,
    Ideal.negf_def, Cert.CellSpec.one_f32]
  exact Cert.CellSpec.logistic_spelt _

/-- The forget gate's activation is the logistic function of its slice. -/
theorem forget_act (i : S262144x64.Idx) :
    val_main_v24 (F := Ideal) x0 x1 x3 x4 x5 x6 x7 x8 x9 x10 x11 i
      = Ideal.logistic (val_main_v10 (F := Ideal) x0 x1 x3 x4 x5 x6 x7 x8 x9 x10 x11 i) := by
  rw [val_main_v24_apply, val_main_v23_apply, val_main_cst_2_apply, val_main_v22_apply, val_main_v21_apply,
    val_main_cst_1_apply, val_main_v20_apply, val_main_v19_apply]
  simp only [Ideal.hostDivf_def, Ideal.ofBits_def, Ideal.addf_def, Ideal.hostUnary_exp_def, Ideal.hostNegf_def,
    Ideal.negf_def, Cert.CellSpec.one_f32]
  exact Cert.CellSpec.logistic_spelt _

/-- The output gate's activation is the logistic function of its slice. -/
theorem output_act (i : S262144x64.Idx) :
    val_main_v30 (F := Ideal) x0 x1 x3 x4 x5 x6 x7 x8 x9 x10 x11 i
      = Ideal.logistic (val_main_v11 (F := Ideal) x0 x1 x3 x4 x5 x6 x7 x8 x9 x10 x11 i) := by
  rw [val_main_v30_apply, val_main_v29_apply, val_main_cst_4_apply, val_main_v28_apply, val_main_v27_apply,
    val_main_cst_3_apply, val_main_v26_apply, val_main_v25_apply]
  simp only [Ideal.hostDivf_def, Ideal.ofBits_def, Ideal.addf_def, Ideal.hostUnary_exp_def, Ideal.hostNegf_def,
    Ideal.negf_def, Cert.CellSpec.one_f32]
  exact Cert.CellSpec.logistic_spelt _

/-! ## The two results -/

/-- The new cell entry at (r, q). -/
theorem cell_at (r : Fin 262144) (q : Fin 64) :
    val_main_v34 (F := Ideal) x0 x1 x2 x3 x4 x5 x6 x7 x8 x9 x10 x11 (ix2 r q)
      = Cert.CellSpec.cellRow (Cert.CellSpec.rowOf x0 r) (Cert.CellSpec.rowOf x1 r) (Cert.CellSpec.rowOf x2 r)
          (x3 (ix2 r (0 : Fin 1))) (Cert.CellSpec.matOf x4) (Cert.CellSpec.vecOf x5) (Cert.CellSpec.matOf x6)
          (Cert.CellSpec.vecOf x7) (Cert.CellSpec.matOf x10) (Cert.CellSpec.vecOf x11) q := by
  rw [val_main_v34_apply, val_main_v32_apply, val_main_v33_apply, val_main_v31_apply, forget_act, input_act,
    forget_at, input_at, candidate_at]
  simp only [Ideal.addf_def, Ideal.mulf_def, Ideal.hostUnary_tanh_def]
  rfl

/-- The new cell array is the specification's. -/
theorem cell_eq :
    val_main_v34 (F := Ideal) x0 x1 x2 x3 x4 x5 x6 x7 x8 x9 x10 x11
      = Cert.CellSpec.newCell x0 x1 x2 x3 x4 x5 x6 x7 x10 x11 := by
  funext i
  obtain ⟨r, q, rfl⟩ : ∃ (r : Fin 262144) (q : Fin 64), i = ix2 r q := ⟨i 0, i 1, eq_ix2 i⟩
  rw [cell_at]
  rfl

/-- The new hidden array is the specification's. -/
theorem hidden_eq :
    val_main_v36 (F := Ideal) x0 x1 x2 x3 x4 x5 x6 x7 x8 x9 x10 x11
      = Cert.CellSpec.newHidden x0 x1 x2 x3 x4 x5 x6 x7 x8 x9 x10 x11 := by
  funext i
  obtain ⟨r, q, rfl⟩ : ∃ (r : Fin 262144) (q : Fin 64), i = ix2 r q := ⟨i 0, i 1, eq_ix2 i⟩
  rw [val_main_v36_apply, val_main_v35_apply, output_act, output_at, cell_at]
  simp only [Ideal.mulf_def, Ideal.hostUnary_tanh_def]
  rfl

end Fixed

end Cert.RefCell

end
-- ==== Proof.lean ====
/-
  One step of a gated recurrent cell with a shared row mask, computed two ways, is one function of the arguments on the
  extended reals.

  The kernel multiplies the masked input rows and the masked hidden rows separately against the upper and the lower
  halves of the four gate matrices and adds the two products; the reference joins input and hidden into rows of 128,
  masks them, and multiplies once against the whole matrices. The two agree because a sum over 128 indices is the sum
  over the first 64 plus the sum over the last 64 — addition of extended reals is commutative and associative, and
  nothing more is used, so no entry needs to be finite. The gates are then passed through the same logistic function
  and hyperbolic tangent on both sides (the reference spells the logistic function as a quotient) and combined in the
  same way. Both programs run to the end without fault and leave their arguments unchanged; the word-level kernel is
  read at the ideal instance as printed, with nothing rewritten.
-/
import proofs.«103007_j19456201851160_2_alg».proof.Defs
import proofs.«103007_j19456201851160_2_alg».proof.Proof.Gen.Kernel
import proofs.«103007_j19456201851160_2_alg».proof.Proof.Gen.Kernel.Skeleton
import proofs.«103007_j19456201851160_2_alg».proof.Proof.Gen.Kernel.Launch
import proofs.«103007_j19456201851160_2_alg».proof.Proof.Gen.Kernel.Points
import proofs.«103007_j19456201851160_2_alg».proof.Proof.Gen.KernelIdeal
import proofs.«103007_j19456201851160_2_alg».proof.Proof.Gen.KernelIdeal.Skeleton
import proofs.«103007_j19456201851160_2_alg».proof.Proof.Gen.KernelIdeal.Launch
import proofs.«103007_j19456201851160_2_alg».proof.Proof.Gen.KernelIdeal.Points
import proofs.«103007_j19456201851160_2_alg».proof.Proof.Gen.ReferenceIdeal
import proofs.«103007_j19456201851160_2_alg».proof.Proof.Gen.Pre_finite_inputs
import proofs.«103007_j19456201851160_2_alg».proof.Proof.Gen.ReferenceIdeal.Run
import proofs.«103007_j19456201851160_2_alg».proof.Proof.Gen.ReferenceIdeal.Read
import proofs.«103007_j19456201851160_2_alg».proof.Proof.StepWord
import proofs.«103007_j19456201851160_2_alg».proof.Proof.StepIdeal
import proofs.«103007_j19456201851160_2_alg».proof.Proof.CellArrays
import proofs.«103007_j19456201851160_2_alg».proof.Proof.RefCell
import Idealize.ShloMosaic.Adequacy
import Idealize.ShloMosaic.Init

noncomputable section

namespace Cert.Proof

open Idealize.ShloMosaic Idealize.SL.Sem

/-- The word-level kernel runs to the end and leaves its arguments unchanged. -/
theorem frame_kernel : Cert.frame_Kernel := fun m ρ _ => Cert.Kernel.Step.frame m ρ

/-- So does the kernel read at the ideal instance. -/
theorem frame_kernelIdeal : Cert.frame_KernelIdeal := fun m ρ _ => Cert.KernelIdeal.Step.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Nothing of the kernel was rewritten for the ideal reading. -/
theorem preserves : Cert.preserves_Kernel_KernelIdeal := trivial

/-- From memories that agree on the twelve arguments both programs end with the new hidden array and the new cell array
    of the specification. -/
theorem algebraic : Cert.algebraic_KernelIdeal_ReferenceIdeal := by
  intro m ρ m' ρ' _ hagree
  refine ⟨fun c => Cert.KernelIdeal.Arrays.hiddenArr m c, fun c => Cert.KernelIdeal.Arrays.cellArr m c,
    Cert.KernelIdeal.Arrays.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11⟩ := hagree c
  refine ⟨(h c).1.trans ?_, (h c).2.1.trans ?_, (h c).2.2⟩
  · refine (Cert.ReferenceIdeal.Read.val_main_v36_eq m' c).trans ((Cert.RefCell.hidden_eq _ _ _ _ _ _ _ _ _ _ _ _).trans ?_)
    rw [a0, a1, a2, a3, a4, a5, a6, a7, a8, a9, a10, a11]
  · refine (Cert.ReferenceIdeal.Read.val_main_v34_eq _ _ _ _ _ _ _ _ _ _ _ _).trans ((Cert.RefCell.cell_eq _ _ _ _ _ _ _ _ _ _ _ _).trans ?_)
    rw [a0, a1, a2, a3, a4, a5, a6, a7, a10, a11]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
